-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S4252 : Shape := ⟨1, ![4252]⟩
abbrev S252 : Shape := ⟨1, ![252]⟩
abbrev S4000 : Shape := ⟨1, ![4000]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S4252 : S_.BroadcastsInDim S4252 (![] : Fin 0 → Fin S4252.rank)
  reducesTo_S4252_S_d0 : S4252.ReducesTo [0] S_
  bcast_S_S252 : S_.BroadcastsInDim S252 (![] : Fin 0 → Fin S252.rank)
  reducesTo_S252_S_d0 : S252.ReducesTo [0] S_

variable [Facts]

def fn_part1 {F : FTy → Type} [FloatOps F] (main_arg4 : FVec F S252 .f32) (main_v13 : IVec S_ 1) (main_v16 : IVec S252 1) : IVec S_ 1 :=
  let main_c_5 : IVec S_ 1 := constantI S_ 1 1#1
  let main_v17 : IVec S_ 1 := (fun x v => Host.reduce IntOp.andi x v reducesTo_S252_S_d0 h_S_) main_v16 main_c_5
  let main_v18 : IVec S_ 1 := andi main_v13 main_v17
  let main_v19 : FVec F S252 .f32 := Host.absf main_arg4
  let main_cst_6 : FVec F S_ .f32 := constant S_ .f32 0x7F800000#32
  let main_v20 : FVec F S252 .f32 := broadcastInDim S252 ![] bcast_S_S252 main_cst_6
  let main_v21 : IVec S252 1 := cmpf .olt main_v19 main_v20
  let main_c_7 : IVec S_ 1 := constantI S_ 1 1#1
  let main_v22 : IVec S_ 1 := (fun x v => Host.reduce IntOp.andi x v reducesTo_S252_S_d0 h_S_) main_v21 main_c_7
  let main_v23 : IVec S_ 1 := andi main_v18 main_v22
  main_v23

def fn {F : FTy → Type} [FloatOps F] (main_arg0 : FVec F S2000000 .f32) (main_arg1 : FVec F S4252 .f32) (main_arg2 : FVec F S4252 .f32) (main_arg3 : FVec F S252 .f32) (main_arg4 : FVec F S252 .f32) (main_arg5 : IVec S4000 32) : IVec S_ 1 :=
  let main_v0 : FVec F S2000000 .f32 := Host.absf main_arg0
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S4252 .f32 := Host.absf main_arg1
  let main_cst_0 : FVec F S_ .f32 := constant S_ .f32 0x7F800000#32
  let main_v5 : FVec F S4252 .f32 := broadcastInDim S4252 ![] bcast_S_S4252 main_cst_0
  let main_v6 : IVec S4252 1 := cmpf .olt main_v4 main_v5
  let main_c_1 : IVec S_ 1 := constantI S_ 1 1#1
  let main_v7 : IVec S_ 1 := (fun x v => Host.reduce IntOp.andi x v reducesTo_S4252_S_d0 h_S_) main_v6 main_c_1
  let main_v8 : IVec S_ 1 := andi main_v3 main_v7
  let main_v9 : FVec F S4252 .f32 := Host.absf main_arg2
  let main_cst_2 : FVec F S_ .f32 := constant S_ .f32 0x7F800000#32
  let main_v10 : FVec F S4252 .f32 := broadcastInDim S4252 ![] bcast_S_S4252 main_cst_2
  let main_v11 : IVec S4252 1 := cmpf .olt main_v9 main_v10
  let main_c_3 : IVec S_ 1 := constantI S_ 1 1#1
  let main_v12 : IVec S_ 1 := (fun x v => Host.reduce IntOp.andi x v reducesTo_S4252_S_d0 h_S_) main_v11 main_c_3
  let main_v13 : IVec S_ 1 := andi main_v8 main_v12
  let main_v14 : FVec F S252 .f32 := Host.absf main_arg3
  let main_cst_4 : FVec F S_ .f32 := constant S_ .f32 0x7F800000#32
  let main_v15 : FVec F S252 .f32 := broadcastInDim S252 ![] bcast_S_S252 main_cst_4
  let main_v16 : IVec S252 1 := cmpf .olt main_v14 main_v15
  fn_part1 (F := F) main_arg4 main_v13 main_v16
-- ==== Kernel.lean ====
abbrev S2000000 : Shape := ⟨1, ![2000000]⟩
abbrev S4252 : Shape := ⟨1, ![4252]⟩
abbrev S252 : Shape := ⟨1, ![252]⟩
abbrev S4000 : Shape := ⟨1, ![4000]⟩
abbrev S_ : Shape := ⟨0, ![]⟩
abbrev S4000x1 : Shape := ⟨2, ![4000, 1]⟩
abbrev S4608 : Shape := ⟨1, ![4608]⟩
abbrev S4608x1 : Shape := ⟨2, ![4608, 1]⟩
abbrev S1x4608 : Shape := ⟨2, ![1, 4608]⟩
abbrev S512x1 : Shape := ⟨2, ![512, 1]⟩
abbrev S1x512 : Shape := ⟨2, ![1, 512]⟩
abbrev S512x512 : Shape := ⟨2, ![512, 512]⟩
abbrev S512 : Shape := ⟨1, ![512]⟩

abbrev nBuf : Space → Nat
  | .hbm => 72
  | .vmem => 23
  | .smem => 0
  | _ => 0

abbrev bufTy : (tb : Table) → Fin (tcTables nBuf tb) → BufTy
  | .hbm, ⟨0, _⟩ => ⟨S2000000, .f32⟩
  | .hbm, ⟨1, _⟩ => ⟨S4252, .f32⟩
  | .hbm, ⟨2, _⟩ => ⟨S4252, .f32⟩
  | .hbm, ⟨3, _⟩ => ⟨S252, .f32⟩
  | .hbm, ⟨4, _⟩ => ⟨S252, .f32⟩
  | .hbm, ⟨5, _⟩ => ⟨S4000, .i32⟩
  | .hbm, ⟨6, _⟩ => ⟨S_, .i32⟩
  | .hbm, ⟨7, _⟩ => ⟨S4000, .i32⟩
  | .hbm, ⟨8, _⟩ => ⟨S4000, .i1⟩
  | .hbm, ⟨9, _⟩ => ⟨S_, .i32⟩
  | .hbm, ⟨10, _⟩ => ⟨S4000, .i32⟩
  | .hbm, ⟨11, _⟩ => ⟨S4000, .i32⟩
  | .hbm, ⟨12, _⟩ => ⟨S4000, .i32⟩
  | .hbm, ⟨13, _⟩ => ⟨S4000x1, .i32⟩
  | .hbm, ⟨14, _⟩ => ⟨S4000, .f32⟩
  | .hbm, ⟨15, _⟩ => ⟨S4000, .f32⟩
  | .hbm, ⟨16, _⟩ => ⟨S_, .f32⟩
  | .hbm, ⟨17, _⟩ => ⟨S4000, .f32⟩
  | .hbm, ⟨18, _⟩ => ⟨S4000, .f32⟩
  | .hbm, ⟨19, _⟩ => ⟨S4000, .f32⟩
  | .hbm, ⟨20, _⟩ => ⟨S_, .i32⟩
  | .hbm, ⟨21, _⟩ => ⟨S4000, .i32⟩
  | .hbm, ⟨22, _⟩ => ⟨S4000, .i32⟩
  | .hbm, ⟨23, _⟩ => ⟨S_, .i32⟩
  | .hbm, ⟨24, _⟩ => ⟨S4000, .i32⟩
  | .hbm, ⟨25, _⟩ => ⟨S4000, .i1⟩
  | .hbm, ⟨26, _⟩ => ⟨S_, .i32⟩
  | .hbm, ⟨27, _⟩ => ⟨S4000, .i32⟩
  | .hbm, ⟨28, _⟩ => ⟨S4000, .i32⟩
  | .hbm, ⟨29, _⟩ => ⟨S4000, .i32⟩
  | .hbm, ⟨30, _⟩ => ⟨S4000x1, .i32⟩
  | .hbm, ⟨31, _⟩ => ⟨S4000, .f32⟩
  | .hbm, ⟨32, _⟩ => ⟨S4000, .f32⟩
  | .hbm, ⟨33, _⟩ => ⟨S_, .f32⟩
  | .hbm, ⟨34, _⟩ => ⟨S4000, .f32⟩
  | .hbm, ⟨35, _⟩ => ⟨S4000, .f32⟩
  | .hbm, ⟨36, _⟩ => ⟨S4000, .f32⟩
  | .hbm, ⟨37, _⟩ => ⟨S4252, .f32⟩
  | .hbm, ⟨38, _⟩ => ⟨S4252, .f32⟩
  | .hbm, ⟨39, _⟩ => ⟨S4252, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4608, .f32⟩
  | .hbm, ⟨45, _⟩ => ⟨S_, .f32⟩
  | .hbm, ⟨46, _⟩ => ⟨S_, .f32⟩
  | .hbm, ⟨47, _⟩ => ⟨S4608, .f32⟩
  | .hbm, ⟨48, _⟩ => ⟨S_, .f32⟩
  | .hbm, ⟨49, _⟩ => ⟨S_, .f32⟩
  | .hbm, ⟨50, _⟩ => ⟨S4608, .f32⟩
  | .hbm, ⟨51, _⟩ => ⟨S_, .f32⟩
  | .hbm, ⟨52, _⟩ => ⟨S_, .f32⟩
  | .hbm, ⟨53, _⟩ => ⟨S4608, .f32⟩
  | .hbm, ⟨54, _⟩ => ⟨S_, .f32⟩
  | .hbm, ⟨55, _⟩ => ⟨S_, .f32⟩
  | .hbm, ⟨56, _⟩ => ⟨S4608, .f32⟩
  | .hbm, ⟨57, _⟩ => ⟨S4608x1, .f32⟩
  | .hbm, ⟨58, _⟩ => ⟨S1x4608, .f32⟩
  | .hbm, ⟨59, _⟩ => ⟨S4608x1, .f32⟩
  | .hbm, ⟨60, _⟩ => ⟨S1x4608, .f32⟩
  | .hbm, ⟨61, _⟩ => ⟨S4608x1, .f32⟩
  | .hbm, ⟨62, _⟩ => ⟨S1x4608, .f32⟩
  | .hbm, ⟨63, _⟩ => ⟨S4608x1, .f32⟩
  | .hbm, ⟨64, _⟩ => ⟨S1x4608, .f32⟩
  | .hbm, ⟨65, _⟩ => ⟨S4608x1, .f32⟩
  | .hbm, ⟨66, _⟩ => ⟨S1x4608, .f32⟩
  | .hbm, ⟨67, _⟩ => ⟨S4608x1, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x512, .f32⟩
  | .local _ .vmem, ⟨3, _⟩ => ⟨S1x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S512x1, .f32⟩
  | .local _ .vmem, ⟨9, _⟩ => ⟨S512x1, .f32⟩
  | .local _ .vmem, ⟨10, _⟩ => ⟨S1x512, .f32⟩
  | .local _ .vmem, ⟨11, _⟩ => ⟨S1x512, .f32⟩
  | .local _ .vmem, ⟨12, _⟩ => ⟨S512x1, .f32⟩
  | .local _ .vmem, ⟨13, _⟩ => ⟨S512x1, .f32⟩
  | .local _ .vmem, ⟨14, _⟩ => ⟨S1x512, .f32⟩
  | .local _ .vmem, ⟨15, _⟩ => ⟨S1x512, .f32⟩
  | .local _ .vmem, ⟨16, _⟩ => ⟨S512x1, .f32⟩
  | .local _ .vmem, ⟨17, _⟩ => ⟨S512x1, .f32⟩
  | .local _ .vmem, ⟨18, _⟩ => ⟨S1x512, .f32⟩
  | .local _ .vmem, ⟨19, _⟩ => ⟨S1x512, .f32⟩
  | .local _ .vmem, ⟨20, _⟩ => ⟨S512x1, .f32⟩
  | .local _ .vmem, ⟨21, _⟩ => ⟨S512x1, .f32⟩
  | .local _ .vmem, ⟨22, _⟩ => ⟨S512x1, .f32⟩
  | _, _ => ⟨S2000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_cst_6 : Ref sig .tc := ⟨.hbm, 42, rfl⟩
abbrev main_call0_v0 : Ref sig .tc := ⟨.hbm, 43, rfl⟩
abbrev main_v28 : Ref sig .tc := ⟨.hbm, 44, rfl⟩
abbrev main_cst_7 : Ref sig .tc := ⟨.hbm, 45, rfl⟩
abbrev main_call1_v0 : Ref sig .tc := ⟨.hbm, 46, rfl⟩
abbrev main_v29 : Ref sig .tc := ⟨.hbm, 47, rfl⟩
abbrev main_cst_8 : Ref sig .tc := ⟨.hbm, 48, rfl⟩
abbrev main_call2_v0 : Ref sig .tc := ⟨.hbm, 49, rfl⟩
abbrev main_v30 : Ref sig .tc := ⟨.hbm, 50, rfl⟩
abbrev main_cst_9 : Ref sig .tc := ⟨.hbm, 51, rfl⟩
abbrev main_call3_v0 : Ref sig .tc := ⟨.hbm, 52, rfl⟩
abbrev main_v31 : Ref sig .tc := ⟨.hbm, 53, rfl⟩
abbrev main_cst_10 : Ref sig .tc := ⟨.hbm, 54, rfl⟩
abbrev main_call4_v0 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_11 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![9, 9], ![false, false]⟩

def k0_cond2 (i : grid0.Coords) : BitVec 1 :=
  let arg1 : BitVec 32 := BitVec.ofNat 32 (i 1).val
  let c8_i32 : BitVec 32 := 8#32
  let v110 : BitVec 1 := Scalar.cmpi .eq arg1 c8_i32
  let v111 : BitVec 32 := Scalar.extui v110
  let c0_i32_43 : BitVec 32 := 0#32
  let v112 : BitVec 1 := Scalar.cmpi .ne v111 c0_i32_43
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  bcast_S_S4000 : S_.BroadcastsInDim S4000 (![] : Fin 0 → Fin S4000.rank)
  bcast_S4000_S4000x1_0 : S4000.BroadcastsInDim S4000x1 (![0] : Fin 1 → Fin S4000x1.rank)
  slices_S4252_S4000_0 : S4252.Slices ![0] S4000
  concatenates_S4000_S252_S4252_d0 : Shape.Concatenates [S4000, S252] S4252 0
  reducesTo_S4252_S_d0 : S4252.ReducesTo [0] S_
  h_S_ : 0 < S_.numel
  pads_S4252_S4608_03560 : S4252.Pads (![0] : Fin 1 → Nat) ![356] ![0] S4608
  shapeCasts_S4608_S4608x1 : S4608.ShapeCasts S4608x1
  shapeCasts_S4608_S1x4608 : S4608.ShapeCasts S1x4608
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reducesTo_S4608x1_S_d0_1 : S4608x1.ReducesTo [0, 1] S_
  gather_S2000000_S4000x1_S4000_n_0_n_n_0_1_1_wf : GatherDims.WF S2000000 S4000x1 S4000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S4608x1.size a
  hwx0_0 : ∀ i : grid0.Coords, EltTy.bits .f32 = 32 ∨ (Rect.block (s := S4608x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4608.size a
  hwx0_1 : ∀ i : grid0.Coords, EltTy.bits .f32 = 32 ∨ (Rect.block (s := S1x4608) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4608x1.size a
  hwx0_2 : ∀ i : grid0.Coords, EltTy.bits .f32 = 32 ∨ (Rect.block (s := S4608x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4608.size a
  hwx0_3 : ∀ i : grid0.Coords, EltTy.bits .f32 = 32 ∨ (Rect.block (s := S1x4608) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4608x1.size a
  hwx0_4 : ∀ i : grid0.Coords, EltTy.bits .f32 = 32 ∨ (Rect.block (s := S4608x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x4608.size a
  hwx0_5 : ∀ i : grid0.Coords, EltTy.bits .f32 = 32 ∨ (Rect.block (s := S1x4608) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S4608x1.size a
  hwx0_6 : ∀ i : grid0.Coords, EltTy.bits .f32 = 32 ∨ (Rect.block (s := S4608x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x4608.size a
  hwx0_7 : ∀ i : grid0.Coords, EltTy.bits .f32 = 32 ∨ (Rect.block (s := S1x4608) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1.size a ≤ S4608x1.size a
  hwx0_8 : ∀ i : grid0.Coords, EltTy.bits .f32 = 32 ∨ (Rect.block (s := S4608x1) S512x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x4608.size a
  hwx0_9 : ∀ i : grid0.Coords, EltTy.bits .f32 = 32 ∨ (Rect.block (s := S1x4608) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4608x1.size a
  hwx0_10 : ∀ i : grid0.Coords, EltTy.bits .f32 = 32 ∨ (Rect.block (s := S4608x1) S512x1.size (cc0_transform_10 i) (hinb0_10 i)).WholeWords (EltTy.packing .f32)

variable [Facts₀]

def gather_S2000000_S4000x1_S4000_n_0_n_n_0_1_1 : GatherDims S2000000 S4000x1 S4000 where
  offsetDims := []
  collapsedSliceDims := [0]
  operandBatchingDims := []
  startIndicesBatchingDims := []
  startIndexMap := [0]
  indexVectorDim := 1
  sliceSizes := ![1]
  wf := gather_S2000000_S4000x1_S4000_n_0_n_n_0_1_1_wf

abbrev win0_0 : Pipeline.Window sig grid0 :=
  Pipeline.Window.ofSpec (Memref.whole main_v33) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v37) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39) S512x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v40) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v41) S512x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v42) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v43) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | ⟨_ + 11, h⟩ => absurd h (Nat.not_lt.2 (Nat.le_add_left _ _))

class Facts : Prop extends Facts₀ where

variable [Facts]
-- ==== ReferenceIdeal.lean ====
abbrev S2000000 : Shape := ⟨1, ![2000000]⟩
abbrev S4252 : Shape := ⟨1, ![4252]⟩
abbrev S252 : Shape := ⟨1, ![252]⟩
abbrev S4000 : Shape := ⟨1, ![4000]⟩
abbrev S_ : Shape := ⟨0, ![]⟩
abbrev S4000x1 : Shape := ⟨2, ![4000, 1]⟩
abbrev S4252x1 : Shape := ⟨2, ![4252, 1]⟩
abbrev S1x4252 : Shape := ⟨2, ![1, 4252]⟩
abbrev S4252x4252 : Shape := ⟨2, ![4252, 4252]⟩

abbrev nBuf : Space → Nat
  | .hbm => 146
  | .vmem => 0
  | .smem => 0
  | _ => 0

abbrev hbmTy0_0 (i : Nat) : BufTy := match i % 128 with
  | 0 => ⟨S2000000, .f32⟩
  | 1 => ⟨S4252, .f32⟩
  | 2 => ⟨S4252, .f32⟩
  | 3 => ⟨S252, .f32⟩
  | 4 => ⟨S252, .f32⟩
  | 5 => ⟨S4000, .i32⟩
  | 6 => ⟨S_, .i32⟩
  | 7 => ⟨S4000, .i32⟩
  | 8 => ⟨S4000, .i1⟩
  | 9 => ⟨S_, .i32⟩
  | 10 => ⟨S4000, .i32⟩
  | 11 => ⟨S4000, .i32⟩
  | 12 => ⟨S4000, .i32⟩
  | 13 => ⟨S4000x1, .i32⟩
  | 14 => ⟨S4000, .f32⟩
  | 15 => ⟨S4000, .f32⟩
  | 16 => ⟨S_, .f32⟩
  | 17 => ⟨S4000, .f32⟩
  | 18 => ⟨S4000, .f32⟩
  | 19 => ⟨S4000, .f32⟩
  | 20 => ⟨S_, .i32⟩
  | 21 => ⟨S4000, .i32⟩
  | 22 => ⟨S4000, .i32⟩
  | 23 => ⟨S_, .i32⟩
  | 24 => ⟨S4000, .i32⟩
  | 25 => ⟨S4000, .i1⟩
  | 26 => ⟨S_, .i32⟩
  | 27 => ⟨S4000, .i32⟩
  | 28 => ⟨S4000, .i32⟩
  | 29 => ⟨S4000, .i32⟩
  | 30 => ⟨S4000x1, .i32⟩
  | 31 => ⟨S4000, .f32⟩
  | 32 => ⟨S4000, .f32⟩
  | 33 => ⟨S_, .f32⟩
  | 34 => ⟨S4000, .f32⟩
  | 35 => ⟨S4000, .f32⟩
  | 36 => ⟨S4000, .f32⟩
  | 37 => ⟨S4252, .f32⟩
  | 38 => ⟨S4252, .f32⟩
  | 39 => ⟨S4252x1, .f32⟩
  | 40 => ⟨S1x4252, .f32⟩
  | 41 => ⟨S4252x4252, .f32⟩
  | 42 => ⟨S4252x4252, .f32⟩
  | 43 => ⟨S4252x4252, .f32⟩
  | 44 => ⟨S4252x4252, .f32⟩
  | 45 => ⟨S4252x1, .f32⟩
  | 46 => ⟨S1x4252, .f32⟩
  | 47 => ⟨S4252x4252, .f32⟩
  | 48 => ⟨S4252x4252, .f32⟩
  | 49 => ⟨S4252x4252, .f32⟩
  | 50 => ⟨S4252x4252, .f32⟩
  | 51 => ⟨S4252x1, .f32⟩
  | 52 => ⟨S1x4252, .f32⟩
  | 53 => ⟨S4252x4252, .f32⟩
  | 54 => ⟨S4252x4252, .f32⟩
  | 55 => ⟨S4252x4252, .f32⟩
  | 56 => ⟨S_, .f32⟩
  | 57 => ⟨S4252x4252, .f32⟩
  | 58 => ⟨S4252x4252, .f32⟩
  | 59 => ⟨S4252x1, .f32⟩
  | 60 => ⟨S1x4252, .f32⟩
  | 61 => ⟨S4252x4252, .f32⟩
  | 62 => ⟨S4252x4252, .f32⟩
  | 63 => ⟨S4252x4252, .f32⟩
  | 64 => ⟨S_, .f32⟩
  | 65 => ⟨S4252x4252, .f32⟩
  | 66 => ⟨S4252x4252, .f32⟩
  | 67 => ⟨S4252x4252, .f32⟩
  | 68 => ⟨S_, .f32⟩
  | 69 => ⟨S4252x4252, .f32⟩
  | 70 => ⟨S4252x4252, .f32⟩
  | 71 => ⟨S4252x4252, .f32⟩
  | 72 => ⟨S_, .f32⟩
  | 73 => ⟨S4252x4252, .f32⟩
  | 74 => ⟨S4252x4252, .f32⟩
  | 75 => ⟨S_, .f32⟩
  | 76 => ⟨S4252x4252, .f32⟩
  | 77 => ⟨S4252x4252, .f32⟩
  | 78 => ⟨S_, .f32⟩
  | 79 => ⟨S4252x4252, .f32⟩
  | 80 => ⟨S4252x4252, .f32⟩
  | 81 => ⟨S_, .f32⟩
  | 82 => ⟨S4252x4252, .f32⟩
  | 83 => ⟨S4252x4252, .f32⟩
  | 84 => ⟨S4252x4252, .f32⟩
  | 85 => ⟨S4252x4252, .i1⟩
  | 86 => ⟨S_, .f32⟩
  | 87 => ⟨S4252x4252, .f32⟩
  | 88 => ⟨S4252x4252, .f32⟩
  | 89 => ⟨S4252x4252, .i1⟩
  | 90 => ⟨S4252x4252, .f32⟩
  | 91 => ⟨S_, .f32⟩
  | 92 => ⟨S_, .f32⟩
  | 93 => ⟨S4252x4252, .f32⟩
  | 94 => ⟨S4252x4252, .f32⟩
  | 95 => ⟨S4252x4252, .f32⟩
  | 96 => ⟨S_, .f32⟩
  | 97 => ⟨S4252x4252, .f32⟩
  | 98 => ⟨S4252x4252, .f32⟩
  | 99 => ⟨S4252x4252, .f32⟩
  | 100 => ⟨S_, .f32⟩
  | 101 => ⟨S4252x4252, .f32⟩
  | 102 => ⟨S4252x4252, .f32⟩
  | 103 => ⟨S_, .f32⟩
  | 104 => ⟨S4252x4252, .f32⟩
  | 105 => ⟨S4252x4252, .f32⟩
  | 106 => ⟨S_, .f32⟩
  | 107 => ⟨S4252x4252, .f32⟩
  | 108 => ⟨S4252x4252, .f32⟩
  | 109 => ⟨S_, .f32⟩
  | 110 => ⟨S4252x4252, .f32⟩
  | 111 => ⟨S4252x4252, .f32⟩
  | 112 => ⟨S4252x4252, .f32⟩
  | 113 => ⟨S4252x4252, .i1⟩
  | 114 => ⟨S_, .f32⟩
  | 115 => ⟨S4252x4252, .f32⟩
  | 116 => ⟨S4252x4252, .f32⟩
  | 117 => ⟨S4252x4252, .i1⟩
  | 118 => ⟨S4252x4252, .f32⟩
  | 119 => ⟨S_, .f32⟩
  | 120 => ⟨S_, .f32⟩
  | 121 => ⟨S4252x4252, .f32⟩
  | 122 => ⟨S4252x4252, .f32⟩
  | 123 => ⟨S4252, .f32⟩
  | 124 => ⟨S4252x1, .f32⟩
  | 125 => ⟨S1x4252, .f32⟩
  | 126 => ⟨S4252x4252, .f32⟩
  | 127 => ⟨S4252x4252, .f32⟩
  | _ => ⟨S2000000, .f32⟩

abbrev hbmTy0_1 (i : Nat) : BufTy := match i % 128 with
  | 0 => ⟨S4252x4252, .f32⟩
  | 1 => ⟨S4252x4252, .f32⟩
  | 2 => ⟨S4252x4252, .f32⟩
  | 3 => ⟨S_, .f32⟩
  | 4 => ⟨S_, .f32⟩
  | 5 => ⟨S4252x4252, .i32⟩
  | 6 => ⟨S_, .i32⟩
  | 7 => ⟨S4252x4252, .i32⟩
  | 8 => ⟨S4252x4252, .i32⟩
  | 9 => ⟨S4252x4252, .i32⟩
  | 10 => ⟨S4252x4252, .i1⟩
  | 11 => ⟨S_, .f32⟩
  | 12 => ⟨S4252x4252, .f32⟩
  | 13 => ⟨S4252x4252, .f32⟩
  | 14 => ⟨S_, .f32⟩
  | 15 => ⟨S_, .f32⟩
  | 16 => ⟨S_, .f32⟩
  | 17 => ⟨S_, .f32⟩
  | _ => ⟨S2000000, .f32⟩

abbrev hbmTy (i : Nat) : BufTy := match i / 128 with
  | 0 => hbmTy0_0 i
  | 1 => hbmTy0_1 i
  | _ => ⟨S2000000, .f32⟩

abbrev bufTy : (tb : Table) → Fin (tcTables nBuf tb) → BufTy
  | .hbm, ⟨i, _⟩ => hbmTy i
  | _, _ => ⟨S2000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_5 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_6 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_7 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_cst_9 : Ref sig .tc := ⟨.hbm, 75, rfl⟩
abbrev main_v58 : Ref sig .tc := ⟨.hbm, 76, rfl⟩
abbrev main_v59 : Ref sig .tc := ⟨.hbm, 77, rfl⟩
abbrev main_cst_10 : Ref sig .tc := ⟨.hbm, 78, rfl⟩
abbrev main_v60 : Ref sig .tc := ⟨.hbm, 79, rfl⟩
abbrev main_v61 : Ref sig .tc := ⟨.hbm, 80, rfl⟩
abbrev main_cst_11 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_12 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_13 : Ref sig .tc := ⟨.hbm, 91, rfl⟩
abbrev main_call1_v0 : Ref sig .tc := ⟨.hbm, 92, rfl⟩
abbrev main_call1_v1 : Ref sig .tc := ⟨.hbm, 93, rfl⟩
abbrev main_v70 : Ref sig .tc := ⟨.hbm, 94, rfl⟩
abbrev main_v71 : Ref sig .tc := ⟨.hbm, 95, rfl⟩
abbrev main_cst_14 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_15 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩
abbrev main_v78 : Ref sig .tc := ⟨.hbm, 105, rfl⟩
abbrev main_cst_17 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_19 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_cst_20 : Ref sig .tc := ⟨.hbm, 119, rfl⟩
abbrev main_call3_v0 : Ref sig .tc := ⟨.hbm, 120, rfl⟩
abbrev main_call3_v1 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_21 : Ref sig .tc := ⟨.hbm, 131, rfl⟩
abbrev main_v98 : Ref sig .tc := ⟨.hbm, 132, rfl⟩
abbrev main_call4_v0 : Ref sig .tc := ⟨.hbm, 133, rfl⟩
abbrev main_call4_c : Ref sig .tc := ⟨.hbm, 134, rfl⟩
abbrev main_call4_v1 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_cst : Ref sig .tc := ⟨.hbm, 139, rfl⟩
abbrev main_call4_v5 : Ref sig .tc := ⟨.hbm, 140, rfl⟩
abbrev main_v99 : Ref sig .tc := ⟨.hbm, 141, rfl⟩
abbrev main_cst_22 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩

abbrev nD : Nat := 1
abbrev τ : Topo := Topo.v7x

variable {F : FTy → Type} [FloatOps F]

class Facts₀ : Prop where
  bcast_S_S4000 : S_.BroadcastsInDim S4000 (![] : Fin 0 → Fin S4000.rank)
  bcast_S4000_S4000x1_0 : S4000.BroadcastsInDim S4000x1 (![0] : Fin 1 → Fin S4000x1.rank)
  slices_S4252_S4000_0 : S4252.Slices ![0] S4000
  concatenates_S4000_S252_S4252_d0 : Shape.Concatenates [S4000, S252] S4252 0
  bcast_S4252_S4252x1_0 : S4252.BroadcastsInDim S4252x1 (![0] : Fin 1 → Fin S4252x1.rank)
  bcast_S4252_S1x4252_1 : S4252.BroadcastsInDim S1x4252 (![1] : Fin 1 → Fin S1x4252.rank)
  bcast_S4252x1_S4252x4252_0_1 : S4252x1.BroadcastsInDim S4252x4252 (![0, 1] : Fin 2 → Fin S4252x4252.rank)
  bcast_S1x4252_S4252x4252_0_1 : S1x4252.BroadcastsInDim S4252x4252 (![0, 1] : Fin 2 → Fin S4252x4252.rank)
  bcast_S_S4252x4252 : S_.BroadcastsInDim S4252x4252 (![] : Fin 0 → Fin S4252x4252.rank)
  reducesTo_S4252_S_d0 : S4252.ReducesTo [0] S_
  h_S_ : 0 < S_.numel
  reducesTo_S4252x4252_S_d0_1 : S4252x4252.ReducesTo [0, 1] S_
  gather_S2000000_S4000x1_S4000_n_0_n_n_0_1_1_wf : GatherDims.WF S2000000 S4000x1 S4000 [] [0] [] [0] [] 1 ![1]

variable [Facts₀]

def gather_S2000000_S4000x1_S4000_n_0_n_n_0_1_1 : GatherDims S2000000 S4000x1 S4000 where
  offsetDims := []
  collapsedSliceDims := [0]
  operandBatchingDims := []
  startIndicesBatchingDims := []
  startIndexMap := [0]
  indexVectorDim := 1
  sliceSizes := ![1]
  wf := gather_S2000000_S4000x1_S4000_n_0_n_n_0_1_1_wf

class Facts : Prop extends Facts₀ where

variable [Facts]
-- ==== Proof.Overlap.lean ====
/-
  The pairwise overlap sum, away from any program.

  For points with centres (x, y), extents (sx, sy) and areas a, the overlap of the pair (i, j) is
      (a i + a j) · bell |x i − x j| ((sx i + sx j)/2) · bell |y i − y j| ((sy i + sy j)/2),
  where bell d s is 1 − 2(d/s)² for d ≤ s/2, 2(d/s − 1)² for s/2 < d ≤ s and 0 beyond (`cell`, `bell`: every
  operation the exact one on the extended reals, the literals 1/2, 1, 2, 0 kept as their binary words).

  Two ways of adding the overlaps of the pairs i < j among the first n of N ≥ n indices agree in any commutative
  additive monoid (`triangle_sum`): masking the N × N square by "row < n, column < n, row < column" and adding all of
  it, or adding the strict upper triangle of the n × n square. Only re-indexing and dropping zero terms is used — no
  cancellation, no finiteness — so the law holds on the extended reals with their infinities.
  The two masks arrive as 32-bit words compared signed; for naturals below 2³¹ the signed comparison of the words is
  the comparison of the naturals (`slt_ofNat`, `sge_ofNat`).
-/
import Idealize.ShloMosaic.PureOps.Ideal
import Idealize.ShloMosaic.Lib.WordArith
import Idealize.ShloMosaic.Lib.Affine

noncomputable section

namespace Cert.Overlap

open Idealize.ShloMosaic

/-! ## One pair's overlap -/

/-- |a − b|. -/
def gap (a b : Ideal .f32) : Ideal .f32 := FloatOps.absf (FloatOps.subf a b)

/-- (p + q) · ½: the mean extent of a pair. -/
def mean (p q : Ideal .f32) : Ideal .f32 := FloatOps.mulf (FloatOps.addf p q) (FloatOps.ofBits .f32 0x3F000000#32)

/-- The piecewise-quadratic bell of a distance `d` against a reach `s`. -/
def bell (d s : Ideal .f32) : Ideal .f32 :=
  Scalar.select (FloatOps.cmpf .ole d s)
    (Scalar.select (FloatOps.cmpf .ole d (FloatOps.mulf (FloatOps.ofBits .f32 0x3F000000#32) s))
      (FloatOps.subf (FloatOps.ofBits .f32 0x3F800000#32)
        (FloatOps.mulf (FloatOps.mulf (FloatOps.ofBits .f32 0x40000000#32) (FloatOps.divf d s)) (FloatOps.divf d s)))
      (FloatOps.mulf (FloatOps.mulf (FloatOps.ofBits .f32 0x40000000#32)
          (FloatOps.subf (FloatOps.divf d s) (FloatOps.ofBits .f32 0x3F800000#32)))
        (FloatOps.subf (FloatOps.divf d s) (FloatOps.ofBits .f32 0x3F800000#32))))
    (FloatOps.ofBits .f32 0x00000000#32)

/-- The overlap of one pair: (aᵢ + aⱼ) · bell_x · bell_y. -/
def cell (xi xj yi yj sxi sxj syi syj ai aj : Ideal .f32) : Ideal .f32 :=
  FloatOps.mulf (FloatOps.mulf (FloatOps.addf ai aj) (bell (gap xi xj) (mean sxi sxj))) (bell (gap yi yj) (mean syi syj))

/-! ## Naturals below 2³¹ as signed 32-bit words -/

theorem slt_ofNat (a b : ℕ) (ha : a < 2 ^ 31) (hb : b < 2 ^ 31) :
    IntOp.cmpi .slt (BitVec.ofNat 32 a) (BitVec.ofNat 32 b) = 1#1 ↔ a < b := by
  rw [IntOp.cmpi_slt, WordArith.toInt_ofNat_small a ha, WordArith.toInt_ofNat_small b hb]; omega

theorem sge_ofNat (a b : ℕ) (ha : a < 2 ^ 31) (hb : b < 2 ^ 31) :
    IntOp.cmpi .sge (BitVec.ofNat 32 a) (BitVec.ofNat 32 b) = 1#1 ↔ b ≤ a := by
  rw [IntOp.cmpi_sge, WordArith.toInt_ofNat_small a ha, WordArith.toInt_ofNat_small b hb]; omega

/-- A one-bit word is 1 or 0. -/
theorem bit_cases (w : BitVec 1) : w = 1#1 ∨ w = 0#1 := by
  rcases w with ⟨⟨v, hv⟩⟩
  have : v = 0 ∨ v = 1 := by omega
  rcases this with rfl | rfl
  · exact Or.inr rfl
  · exact Or.inl rfl

/-- The conjunction of two one-bit words is 1 exactly when both are. -/
theorem andi_eq_one (u v : BitVec 1) : IntOp.andi u v = 1#1 ↔ u = 1#1 ∧ v = 1#1 := by
  rcases bit_cases u with rfl | rfl <;> rcases bit_cases v with rfl | rfl <;> decide

/-- A select on a one-bit word that is 1 exactly when `P` holds is the `if` on `P`. -/
theorem select_iff {α : Type} (w : BitVec 1) (P : Prop) [Decidable P] (h : w = 1#1 ↔ P) (A B : α) :
    Scalar.select w A B = if P then A else B := by
  unfold Scalar.select
  by_cases hp : P
  · rw [if_pos hp]; exact if_pos (h.mpr hp)
  · rw [if_neg hp]; exact if_neg (fun hw => hp (h.mp hw))

/-- The kernel's mask word — row below n, column below n, row below column, on words of small naturals. -/
theorem mask_word (a b : ℕ) (ha : a < 2 ^ 31) (hb : b < 2 ^ 31) :
    IntOp.andi (IntOp.andi (IntOp.cmpi .slt (BitVec.ofNat 32 a) 4252#32) (IntOp.cmpi .slt (BitVec.ofNat 32 b) 4252#32))
        (IntOp.cmpi .slt (BitVec.ofNat 32 a) (BitVec.ofNat 32 b)) = 1#1
      ↔ a < 4252 ∧ b < 4252 ∧ a < b := by
  rw [andi_eq_one, andi_eq_one, show (4252#32 : BitVec 32) = BitVec.ofNat 32 4252 from rfl,
    slt_ofNat a 4252 ha (by norm_num), slt_ofNat b 4252 hb (by norm_num), slt_ofNat a b ha hb]
  tauto

/-! ## The two summation orders -/

/-- The masked N × N square and the strict upper triangle of the n × n square have the same sum. -/
theorem triangle_sum {M : Type*} [AddCommMonoid M] (n N : ℕ) (hn : n ≤ N) (C : ℕ → ℕ → M) :
    ∑ a : Fin N, ∑ b : Fin N, (if a.val < n ∧ b.val < n ∧ a.val < b.val then C a.val b.val else 0)
      = ∑ i : Fin n, ∑ j : Fin n, (if i.val < j.val then C i.val j.val else 0) := by
  rw [Fin.sum_univ_eq_sum_range (fun a => ∑ b : Fin N, (if a < n ∧ b.val < n ∧ a < b.val then C a b.val else 0)) N,
    Fin.sum_univ_eq_sum_range (fun i => ∑ j : Fin n, (if i < j.val then C i j.val else 0)) n]
  rw [← Finset.sum_subset (Finset.range_mono hn) (fun a _ ha => by
    have : ¬ a < n := by simpa using ha
    exact Finset.sum_eq_zero fun b _ => by rw [if_neg (fun h => this h.1)])]
  refine Finset.sum_congr rfl fun a ha => ?_
  have han : a < n := Finset.mem_range.mp ha
  rw [Fin.sum_univ_eq_sum_range (fun b => if a < n ∧ b < n ∧ a < b then C a b else 0) N,
    Fin.sum_univ_eq_sum_range (fun j => if a < j then C a j else 0) n]
  rw [← Finset.sum_subset (Finset.range_mono hn) (fun b _ hb => by
    have : ¬ b < n := by simpa using hb
    rw [if_neg (fun h => this h.2.1)])]
  refine Finset.sum_congr rfl fun b hb => ?_
  have hbn : b < n := Finset.mem_range.mp hb
  by_cases h : a < b
  · rw [if_pos ⟨han, hbn, h⟩, if_pos h]
  · rw [if_neg (fun h' => h h'.2.2), if_neg h]

end Cert.Overlap

end
-- ==== Proof.LibColumn.lean ====
/-
  Rank-2 "keepdims" forms read at an index given by coordinates, for any extents a × b:
  a vector [a] cast to a column [a, 1] (`shapeCast_a_a1_apply`), a column [a, 1] broadcast across b lanes
  (`broadcastTo_a1_ab_apply`), and the sum of a matrix along its last axis, on the extended reals, as a sum over
  the lane coordinate (`sum_last_apply`). Together with the row forms [a] → [1, a] → [b, a] of the layout library
  they read `sum(x·x, axis=-1, keepdims=True)`-style expressions entry by entry.
-/
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` array cast to `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an `[a, b]` matrix along its last axis, read at row `p` on the extended reals, is the sum over the
    lane coordinate of that row's entries (the accumulator word is the neutral one, zero). -/
theorem sum_last_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ d : Fin b, x (ix2 p d) := by
  refine (Ideal.multiReduction_add_single x 0x00000000#32 h hφ hacc (ix1 p)).trans ?_
  show ∑ d : Fin b, x (h.lift (ix1 p) d) = ∑ d : Fin b, x (ix2 p d)
  refine Finset.sum_congr rfl fun d _ => congrArg x (funext fun c => Fin.ext ?_)
  match c with
  | ⟨0, _⟩ => rfl
  | ⟨1, _⟩ => rfl

end Cert.LibColumn

end
-- ==== Proof.LibWordRemainder.lean ====
/-
  Small natural numbers held in 32-bit words, and the host program's integer operations on them.

  A natural number `k` below `2³²` is the natural value of the word `BitVec.ofNat 32 k`; below `2³¹` that word's top
  bit is clear, so its signed reading is `k` too. On such words the wrapping product and sum are the words of the product
  and the sum of the numbers (`muli_ofNat`, `addi_ofNat`: the word of a number depends only on the number modulo `2³²`,
  and reduction modulo `2³²` is a ring homomorphism). The signed remainder of `k` by `d`, `0 < d`, both below `2³¹`, is
  away from the signed-division corner (the divisor is neither zero nor `-1`), both operands are non-negative, so it is
  the unsigned remainder, the word of `k % d` (`remsi_host_ofNat`). The floored remainder as a host program spells it —
  the truncated remainder `r`, plus the divisor when `r` and the divisor differ in sign and `r ≠ 0` — adds nothing here:
  neither `r` nor the divisor is negative, so the signs agree and the result is `r` itself (`floorRem_ofNat`). Likewise
  the wrap of a negative index, `select (k < 0) (k + n) k`, leaves a non-negative `k` alone (`select_slt_zero_ofNat`),
  and the guard that replaces a zero divisor by one leaves the divisor `10000` alone (`divisor_guard`).
-/
import Idealize.ShloMosaic.PureOps.Ideal
import Idealize.ShloMosaic.Lib.WordArith

noncomputable section

namespace Idealize.ShloMosaic.WordRemainder

open Idealize.ShloMosaic

/-- A natural number below `2³²` is the natural value of its 32-bit word. -/
theorem toNat_ofNat_of_lt (k : Nat) (hk : k < 2 ^ 32) : (BitVec.ofNat 32 k).toNat = k := by
  rw [BitVec.toNat_ofNat]; exact Nat.mod_eq_of_lt hk

/-- A natural number below `2³¹`, as a 32-bit word read signed and then clamped to the naturals, is itself: the signed
reading is already the number. -/
theorem toInt_toNat_ofNat (k : Nat) (hk : k < 2 ^ 31) : (BitVec.ofNat 32 k).toInt.toNat = k := by
  rw [WordArith.toInt_ofNat_small k hk]; exact Int.toNat_natCast k

/-- The wrapping product of the words of two natural numbers is the word of their product. -/
theorem muli_ofNat (a b : Nat) : IntOp.muli (BitVec.ofNat 32 a) (BitVec.ofNat 32 b) = BitVec.ofNat 32 (a * b) := by
  unfold IntOp.muli
  apply BitVec.eq_of_toNat_eq
  rw [BitVec.toNat_mul, BitVec.toNat_ofNat, BitVec.toNat_ofNat, BitVec.toNat_ofNat]
  exact (Nat.mul_mod a b (2 ^ 32)).symm

/-- The wrapping sum of the words of two natural numbers is the word of their sum. -/
theorem addi_ofNat (a b : Nat) : IntOp.addi (BitVec.ofNat 32 a) (BitVec.ofNat 32 b) = BitVec.ofNat 32 (a + b) := by
  unfold IntOp.addi
  apply BitVec.eq_of_toNat_eq
  rw [BitVec.toNat_add, BitVec.toNat_ofNat, BitVec.toNat_ofNat, BitVec.toNat_ofNat]
  exact (Nat.add_mod a b (2 ^ 32)).symm

/-- The word of a natural number below `2³¹` has its top bit clear. -/
theorem msb_ofNat_of_lt (k : Nat) (hk : k < 2 ^ 31) : (BitVec.ofNat 32 k).msb = false := by
  rw [BitVec.msb_eq_false_iff_two_mul_lt, toNat_ofNat_of_lt k (by omega)]; omega

/-- The signed remainder of `k` by `d`, for `0 < d` and both below `2³¹`, is the word of the natural remainder `k % d`:
the divisor is neither zero nor `-1`, so the operation is the truncated signed remainder, and with both operands
non-negative that is the unsigned remainder. -/
theorem remsi_host_ofNat (k d : Nat) (hk : k < 2 ^ 31) (hd0 : 0 < d) (hd : d < 2 ^ 31) :
    IntOp.remsi .host (BitVec.ofNat 32 k) (BitVec.ofNat 32 d) = BitVec.ofNat 32 (k % d) := by
  have hkn : (BitVec.ofNat 32 k).toNat = k := toNat_ofNat_of_lt k (by omega)
  have hdn : (BitVec.ofNat 32 d).toNat = d := toNat_ofNat_of_lt d (by omega)
  have hm1 : (-1 : BitVec 32).toNat = 4294967295 := by decide
  have hz : (0 : BitVec 32).toNat = 0 := rfl
  have hc : ¬ IntOp.SDivCorner (BitVec.ofNat 32 k) (BitVec.ofNat 32 d) := by
    rintro (h | ⟨_, h⟩)
    · have e := congrArg BitVec.toNat h
      rw [hdn, hz] at e; omega
    · have e := congrArg BitVec.toNat h
      rw [hdn, hm1] at e; omega
  unfold IntOp.remsi
  rw [if_neg hc, BitVec.srem_eq, msb_ofNat_of_lt k hk, msb_ofNat_of_lt d hd]
  apply BitVec.eq_of_toNat_eq
  have hlt := Nat.mod_lt k hd0
  rw [BitVec.toNat_umod, hkn, hdn, toNat_ofNat_of_lt (k % d) (by omega)]

/-- A natural number below `2³¹` is not signed-below zero. -/
theorem cmpi_slt_ofNat_zero (k : Nat) (hk : k < 2 ^ 31) : IntOp.cmpi .slt (BitVec.ofNat 32 k) 0#32 = 0#1 := by
  have h0 : (0#32 : BitVec 32).toInt = 0 := by decide
  have h : (BitVec.ofNat 32 k).slt 0#32 = false := by
    rw [BitVec.slt_eq_decide, WordArith.toInt_ofNat_small k hk, h0, decide_eq_false_iff_not]; omega
  show BitVec.ofBool ((BitVec.ofNat 32 k).slt 0#32) = 0#1
  rw [h]; rfl

/-- The floored remainder as a host program spells it — the truncated remainder `r`, plus the divisor when `r` and the
divisor differ in sign and `r` is not zero — is the word of `k % d` for `0 < d` and `k`, `d` below `2³¹`: neither `r`
nor the divisor is negative, so the correction is not taken. -/
theorem floorRem_ofNat (k d : Nat) (hk : k < 2 ^ 31) (hd0 : 0 < d) (hd : d < 2 ^ 31) :
    Scalar.select (IntOp.andi (IntOp.cmpi .ne (IntOp.cmpi .slt (IntOp.remsi .host (BitVec.ofNat 32 k) (BitVec.ofNat 32 d)) 0#32) (IntOp.cmpi .slt (BitVec.ofNat 32 d) 0#32)) (IntOp.cmpi .ne (IntOp.remsi .host (BitVec.ofNat 32 k) (BitVec.ofNat 32 d)) 0#32)) (IntOp.addi (IntOp.remsi .host (BitVec.ofNat 32 k) (BitVec.ofNat 32 d)) (BitVec.ofNat 32 d)) (IntOp.remsi .host (BitVec.ofNat 32 k) (BitVec.ofNat 32 d)) = BitVec.ofNat 32 (k % d) := by
  have hlt := Nat.mod_lt k hd0
  have hne : IntOp.cmpi .ne (0#1) (0#1) = 0#1 := by decide
  rw [remsi_host_ofNat k d hk hd0 hd, cmpi_slt_ofNat_zero (k % d) (by omega), cmpi_slt_ofNat_zero d hd, hne]
  unfold Scalar.select IntOp.andi
  rw [BitVec.zero_and, if_neg (by decide)]

/-- The wrap of a negative index, `select (k < 0) (k + n) k`, leaves a natural number `k` below `2³¹` alone. -/
theorem select_slt_zero_ofNat (k n : Nat) (hk : k < 2 ^ 31) :
    Scalar.select (IntOp.cmpi .slt (BitVec.ofNat 32 k) 0#32) (IntOp.addi (BitVec.ofNat 32 k) (BitVec.ofNat 32 n)) (BitVec.ofNat 32 k) = BitVec.ofNat 32 k := by
  rw [cmpi_slt_ofNat_zero k hk]
  unfold Scalar.select
  rw [if_neg (by decide)]

/-- The guard that replaces a zero divisor by one leaves the divisor `10000` alone. -/
theorem divisor_guard : Scalar.select (IntOp.cmpi .eq (10000#32) 0#32) 1#32 10000#32 = 10000#32 := by
  decide

end Idealize.ShloMosaic.WordRemainder

end
-- ==== Proof.BlockValue.lean ====
/-
  One grid point's work, as a value.

  At grid point (I, J) the body adds to the carried column, at row r, the sum over the 512 lanes l of the overlap of the
  pair (512·I + r, 512·J + l) — kept only where both numbers are below 4252 and the first is below the second, zero
  elsewhere. `step` is that update as the body computes it (over the ten loaded blocks: the column blocks of x, y,
  the two extents and the area at the rows of block I, the row blocks of the same five at the lanes of block J);
  `step_apply` reads it at a row on the extended reals.
-/
import proofs.«151115_j71519795413200_1_alg».proof.Proof.Gen.KernelIdeal.Skeleton
import proofs.«151115_j71519795413200_1_alg».proof.Proof.Overlap
import proofs.«151115_j71519795413200_1_alg».proof.Proof.LibColumn
import proofs.«151115_j71519795413200_1_alg».proof.Proof.LibWordRemainder
import Idealize.ShloMosaic.Lib.ValueLayout
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen Cert.Overlap

/-- The carried column after the body at grid point `i`, from the column it found (`acc`) and the ten blocks. -/
def step {F : FTy → Type} [FloatOps F] (i : grid0.Coords) (x0 : Vec F S512x1 .f32) (x1 : Vec F S1x512 .f32) (x2 : Vec F S512x1 .f32) (x3 : Vec F S1x512 .f32) (x4 : Vec F S512x1 .f32) (x5 : Vec F S1x512 .f32) (x6 : Vec F S512x1 .f32) (x7 : Vec F S1x512 .f32) (x8 : Vec F S512x1 .f32) (x9 : Vec F S1x512 .f32) (acc : Vec F S512x1 .f32) : FVec F S512x1 .f32 :=
  k0_pay1 (BitVec.ofNat 32 (i 0).val) (BitVec.ofNat 32 (i 1).val) (k0_pay5 x8) (k0_pay6 x9)
    (k0_pay11 (k0_pay7 x0 x1) (k0_pay9 x4 x5) (Scalar.ofBits .f32 0x3F000000#32))
    (k0_pay12 (k0_pay3 x6) (k0_pay4 x7) (k0_pay8 x2 x3))
    (k0_pay13 (k0_pay3 x6) (k0_pay4 x7) (k0_pay8 x2 x3)) (Scalar.ofBits .f32 0x00000000#32) acc

/-- A column block against a row block, spread over the 512 × 512 tile: entry (r, l) pairs row r with lane l. -/
theorem spread_col (v : FVec Ideal S512x1 .f32) (r l : Fin 512) :
    broadcastTo S512x512 (shapeCast S512x1 v shapeCasts_S512x1_S512x1) broadcasts_S512x1_S512x512 (ix2 r l) = v (ix2 r (0 : Fin 1)) := by
  rw [shapeCast_self]; exact LibColumn.broadcastTo_a1_ab_apply v _ r l

theorem spread_row (v : FVec Ideal S1x512 .f32) (r l : Fin 512) :
    broadcastTo S512x512 (shapeCast S1x512 v shapeCasts_S1x512_S1x512) broadcasts_S1x512_S512x512 (ix2 r l) = v (ix2 (0 : Fin 1) l) := by
  rw [shapeCast_self]; exact broadcastTo_1b_ab_apply v _ r l

/-- The distance tile |col − row| at (r, l). -/
theorem gapx_apply (x0 : FVec Ideal S512x1 .f32) (x1 : FVec Ideal S1x512 .f32) (r l : Fin 512) :
    k0_pay7 x0 x1 (ix2 r l) = gap (x0 (ix2 r (0 : Fin 1))) (x1 (ix2 (0 : Fin 1) l)) := by
  show FloatOps.absf (FloatOps.subf (broadcastTo S512x512 (shapeCast S512x1 x0 shapeCasts_S512x1_S512x1) broadcasts_S512x1_S512x512 (ix2 r l))
    (broadcastTo S512x512 (shapeCast S1x512 x1 shapeCasts_S1x512_S1x512) broadcasts_S1x512_S512x512 (ix2 r l))) = _
  rw [spread_col, spread_row]; rfl

theorem gapy_apply (x2 : FVec Ideal S512x1 .f32) (x3 : FVec Ideal S1x512 .f32) (r l : Fin 512) :
    k0_pay8 x2 x3 (ix2 r l) = gap (x2 (ix2 r (0 : Fin 1))) (x3 (ix2 (0 : Fin 1) l)) := by
  show FloatOps.absf (FloatOps.subf (broadcastTo S512x512 (shapeCast S512x1 x2 shapeCasts_S512x1_S512x1) broadcasts_S512x1_S512x512 (ix2 r l))
    (broadcastTo S512x512 (shapeCast S1x512 x3 shapeCasts_S1x512_S1x512) broadcasts_S1x512_S512x512 (ix2 r l))) = _
  rw [spread_col, spread_row]; rfl

/-- The x-reach tile (col + row) · ½ … before the ½: the sum at (r, l). -/
theorem sumx_apply (x4 : FVec Ideal S512x1 .f32) (x5 : FVec Ideal S1x512 .f32) (r l : Fin 512) :
    k0_pay9 x4 x5 (ix2 r l) = FloatOps.addf (x4 (ix2 r (0 : Fin 1))) (x5 (ix2 (0 : Fin 1) l)) := by
  show FloatOps.addf (broadcastTo S512x512 (shapeCast S512x1 x4 shapeCasts_S512x1_S512x1) broadcasts_S512x1_S512x512 (ix2 r l))
    (broadcastTo S512x512 (shapeCast S1x512 x5 shapeCasts_S1x512_S1x512) broadcasts_S1x512_S512x512 (ix2 r l)) = _
  rw [spread_col, spread_row]

/-- The y-reach tile at (r, l). -/
theorem meany_apply (x6 : FVec Ideal S512x1 .f32) (x7 : FVec Ideal S1x512 .f32) (r l : Fin 512) :
    k0_pay10 (k0_pay3 x6) (k0_pay4 x7) (ix2 r l) = mean (x6 (ix2 r (0 : Fin 1))) (x7 (ix2 (0 : Fin 1) l)) := by
  show FloatOps.mulf (FloatOps.addf (broadcastTo S512x512 (shapeCast S512x1 x6 shapeCasts_S512x1_S512x1) broadcasts_S512x1_S512x512 (ix2 r l))
    (broadcastTo S512x512 (shapeCast S1x512 x7 shapeCasts_S1x512_S1x512) broadcasts_S1x512_S512x512 (ix2 r l))) _ = _
  rw [spread_col, spread_row]; rfl

/-- The area-sum tile at (r, l). -/
theorem area_apply (x8 : FVec Ideal S512x1 .f32) (x9 : FVec Ideal S1x512 .f32) (r l : Fin 512) :
    FloatOps.addf (broadcastTo S512x512 (k0_pay5 x8) broadcasts_S512x1_S512x512 (ix2 r l))
        (broadcastTo S512x512 (k0_pay6 x9) broadcasts_S1x512_S512x512 (ix2 r l))
      = FloatOps.addf (x8 (ix2 r (0 : Fin 1))) (x9 (ix2 (0 : Fin 1) l)) := by
  show FloatOps.addf (broadcastTo S512x512 (shapeCast S512x1 x8 shapeCasts_S512x1_S512x1) broadcasts_S512x1_S512x512 (ix2 r l))
    (broadcastTo S512x512 (shapeCast S1x512 x9 shapeCasts_S1x512_S1x512) broadcasts_S1x512_S512x512 (ix2 r l)) = _
  rw [spread_col, spread_row]

/-- The unmasked product at (r, l) is the pair's overlap. -/
theorem pair_apply (x0 : Vec Ideal S512x1 .f32) (x1 : Vec Ideal S1x512 .f32) (x2 : Vec Ideal S512x1 .f32) (x3 : Vec Ideal S1x512 .f32) (x4 : Vec Ideal S512x1 .f32) (x5 : Vec Ideal S1x512 .f32) (x6 : Vec Ideal S512x1 .f32) (x7 : Vec Ideal S1x512 .f32) (x8 : Vec Ideal S512x1 .f32) (x9 : Vec Ideal S1x512 .f32) (r l : Fin 512) :
    FloatOps.mulf (FloatOps.mulf
        (FloatOps.addf (broadcastTo S512x512 (k0_pay5 x8) broadcasts_S512x1_S512x512 (ix2 r l))
          (broadcastTo S512x512 (k0_pay6 x9) broadcasts_S1x512_S512x512 (ix2 r l)))
        (k0_pay11 (k0_pay7 x0 x1) (k0_pay9 x4 x5) (Scalar.ofBits .f32 0x3F000000#32) (ix2 r l)))
      (Scalar.select (k0_pay12 (k0_pay3 x6) (k0_pay4 x7) (k0_pay8 x2 x3) (ix2 r l))
        (k0_pay13 (k0_pay3 x6) (k0_pay4 x7) (k0_pay8 x2 x3) (ix2 r l)) (Scalar.ofBits .f32 0x00000000#32))
      = cell (x0 (ix2 r (0 : Fin 1))) (x1 (ix2 (0 : Fin 1) l)) (x2 (ix2 r (0 : Fin 1))) (x3 (ix2 (0 : Fin 1) l))
          (x4 (ix2 r (0 : Fin 1))) (x5 (ix2 (0 : Fin 1) l)) (x6 (ix2 r (0 : Fin 1))) (x7 (ix2 (0 : Fin 1) l))
          (x8 (ix2 r (0 : Fin 1))) (x9 (ix2 (0 : Fin 1) l)) := by
  rw [area_apply]
  have hx : k0_pay11 (k0_pay7 x0 x1) (k0_pay9 x4 x5) (Scalar.ofBits .f32 0x3F000000#32) (ix2 r l)
      = bell (k0_pay7 x0 x1 (ix2 r l)) (FloatOps.mulf (k0_pay9 x4 x5 (ix2 r l)) (FloatOps.ofBits .f32 0x3F000000#32)) := rfl
  have hy : Scalar.select (k0_pay12 (k0_pay3 x6) (k0_pay4 x7) (k0_pay8 x2 x3) (ix2 r l))
        (k0_pay13 (k0_pay3 x6) (k0_pay4 x7) (k0_pay8 x2 x3) (ix2 r l)) (Scalar.ofBits .f32 0x00000000#32)
      = bell (k0_pay8 x2 x3 (ix2 r l)) (k0_pay10 (k0_pay3 x6) (k0_pay4 x7) (ix2 r l)) := rfl
  rw [hx, hy, gapx_apply, gapy_apply, sumx_apply, meany_apply]
  rfl

/-- The row-number tile at (r, l) is r; the lane-number tile is l. -/
theorem iota_row (r l : Fin 512) : iota .tc S512x512 32 [0] iota_S512x512_d0_w32 (ix2 r l) = BitVec.ofNat 32 r.val := by
  show BitVec.ofNat 32 (0 * 512 + r.val) = _
  rw [Nat.zero_mul, Nat.zero_add]

theorem iota_lane (r l : Fin 512) : iota .tc S512x512 32 [1] iota_S512x512_d1_w32 (ix2 r l) = BitVec.ofNat 32 l.val := by
  show BitVec.ofNat 32 (0 * 512 + l.val) = _
  rw [Nat.zero_mul, Nat.zero_add]

/-- The body's last payload at row r: the carried entry plus the lane sum of the masked tile. -/
theorem pay1_apply (a0 a1 : BitVec 32) (v20 : FVec Ideal S512x1 .f32) (v22 : FVec Ideal S1x512 .f32) (v60 : FVec Ideal S512x512 .f32)
    (v74 : IVec S512x512 1) (v78 : FVec Ideal S512x512 .f32) (z : Ideal .f32) (acc : Vec Ideal S512x1 .f32) (r : Fin 512) :
    k0_pay1 a0 a1 v20 v22 v60 v74 v78 z acc (ix2 r (0 : Fin 1)) = acc (ix2 r (0 : Fin 1)) + ∑ l : Fin 512,
      Scalar.select
        (IntOp.andi (IntOp.andi
            (IntOp.cmpi .slt (IntOp.addi (iota .tc S512x512 32 [0] iota_S512x512_d0_w32 (ix2 r l)) (Scalar.muli a0 512#32)) 4252#32)
            (IntOp.cmpi .slt (IntOp.addi (iota .tc S512x512 32 [1] iota_S512x512_d1_w32 (ix2 r l)) (Scalar.muli a1 512#32)) 4252#32))
          (IntOp.cmpi .slt (IntOp.addi (iota .tc S512x512 32 [0] iota_S512x512_d0_w32 (ix2 r l)) (Scalar.muli a0 512#32))
            (IntOp.addi (iota .tc S512x512 32 [1] iota_S512x512_d1_w32 (ix2 r l)) (Scalar.muli a1 512#32))))
        (FloatOps.mulf (FloatOps.mulf
            (FloatOps.addf (broadcastTo S512x512 v20 broadcasts_S512x1_S512x512 (ix2 r l))
              (broadcastTo S512x512 v22 broadcasts_S1x512_S512x512 (ix2 r l)))
            (v60 (ix2 r l)))
          (Scalar.select (v74 (ix2 r l)) (v78 (ix2 r l)) z))
        (Scalar.ofBits .f32 0x00000000#32) := by
  unfold k0_pay1
  dsimp only
  rw [shapeCast_self]
  refine congrArg (acc (ix2 r (0 : Fin 1)) + ·) ?_
  refine (LibColumn.shapeCast_a_a1_apply _ _ r 0).trans ?_
  refine (LibColumn.sum_last_apply _ _ _ _ r).trans ?_
  rfl

/-- ONE GRID POINT: the carried column's entry at row r grows by the overlaps of (512·I + r, 512·J + l) over the lanes l,
    counted only where both numbers are below 4252 and the first is below the second. -/
theorem step_apply (i : grid0.Coords) (x0 : Vec Ideal S512x1 .f32) (x1 : Vec Ideal S1x512 .f32) (x2 : Vec Ideal S512x1 .f32) (x3 : Vec Ideal S1x512 .f32) (x4 : Vec Ideal S512x1 .f32) (x5 : Vec Ideal S1x512 .f32) (x6 : Vec Ideal S512x1 .f32) (x7 : Vec Ideal S1x512 .f32) (x8 : Vec Ideal S512x1 .f32) (x9 : Vec Ideal S1x512 .f32) (acc : Vec Ideal S512x1 .f32) (r : Fin 512) :
    step i x0 x1 x2 x3 x4 x5 x6 x7 x8 x9 acc (ix2 r (0 : Fin 1)) = acc (ix2 r (0 : Fin 1)) + ∑ l : Fin 512,
      (if (i 0).val * 512 + r.val < 4252 ∧ (i 1).val * 512 + l.val < 4252 ∧ (i 0).val * 512 + r.val < (i 1).val * 512 + l.val
        then cell (x0 (ix2 r (0 : Fin 1))) (x1 (ix2 (0 : Fin 1) l)) (x2 (ix2 r (0 : Fin 1))) (x3 (ix2 (0 : Fin 1) l))
          (x4 (ix2 r (0 : Fin 1))) (x5 (ix2 (0 : Fin 1) l)) (x6 (ix2 r (0 : Fin 1))) (x7 (ix2 (0 : Fin 1) l))
          (x8 (ix2 r (0 : Fin 1))) (x9 (ix2 (0 : Fin 1) l)) else 0) := by
  have hI : (i 0).val < 9 := (i 0).isLt
  have hJ : (i 1).val < 9 := (i 1).isLt
  unfold step
  refine (pay1_apply _ _ _ _ _ _ _ _ acc r).trans ?_
  refine congrArg (acc (ix2 r (0 : Fin 1)) + ·) (Finset.sum_congr rfl fun l _ => ?_)
  have hr : r.val < 512 := r.isLt
  have hl : l.val < 512 := l.isLt
  rw [pair_apply, iota_row, iota_lane]
  have hrow : IntOp.addi (BitVec.ofNat 32 r.val) (Scalar.muli (BitVec.ofNat 32 (i 0).val) 512#32)
      = BitVec.ofNat 32 ((i 0).val * 512 + r.val) := by
    show IntOp.addi (BitVec.ofNat 32 r.val) (IntOp.muli (BitVec.ofNat 32 (i 0).val) (BitVec.ofNat 32 512)) = _
    rw [WordRemainder.muli_ofNat, WordRemainder.addi_ofNat, Nat.add_comm]
  have hcol : IntOp.addi (BitVec.ofNat 32 l.val) (Scalar.muli (BitVec.ofNat 32 (i 1).val) 512#32)
      = BitVec.ofNat 32 ((i 1).val * 512 + l.val) := by
    show IntOp.addi (BitVec.ofNat 32 l.val) (IntOp.muli (BitVec.ofNat 32 (i 1).val) (BitVec.ofNat 32 512)) = _
    rw [WordRemainder.muli_ofNat, WordRemainder.addi_ofNat, Nat.add_comm]
  rw [hrow, hcol]
  rw [select_iff _ _ (mask_word ((i 0).val * 512 + r.val) ((i 1).val * 512 + l.val) (by omega) (by omega))]
  exact if_congr Iff.rfl rfl Ideal.ofBits_zero_f32

end Cert.KernelIdeal.BlockValue

end
-- ==== Proof.Pieces.lean ====
/-
  What each control case of the body leaves behind, as values.

  The body has three cases by the lane-block coordinate J of the grid point: J = 0 (the carried column is reset to
  zero first), 0 < J < 8, and J = 8 (the carried column is also copied to the output block). In every case the carried
  column ends at `step` of the grid point's ten blocks and the column it started from — the zero column at J = 0, what
  the point before left otherwise — and at J = 8 the output block ends at that same column.
-/
import proofs.«151115_j71519795413200_1_alg».proof.Proof.Gen.KernelIdeal.Frame
import proofs.«151115_j71519795413200_1_alg».proof.Proof.BlockValue
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.BlockValue

variable {F : FTy → Type} [FloatOps F]

theorem hz : (![0, 0] : Fin 2 → Nat) = fun _ => 0 := funext fun a => by fin_cases a <;> rfl

/-- J = 0: the reset column plus this block's lane sums. -/
theorem scratch_first (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x512 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i) (x0 : Vec F S512x1 .f32) (x1 : Vec F S1x512 .f32) (x2 : Vec F S512x1 .f32) (x3 : Vec F S1x512 .f32) (x4 : Vec F S512x1 .f32) (x5 : Vec F S1x512 .f32) (x6 : Vec F S512x1 .f32) (x7 : Vec F S1x512 .f32) (x8 : Vec F S512x1 .f32) (x9 : Vec F S1x512 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 = step i x0 x1 x2 x3 x4 x5 x6 x7 x8 x9 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9)]
  unfold kernelRun0_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1) hz, View.ld_unit_zero (S := S1x512) hz]
  rfl

/-- 0 < J < 8: the carried column plus this block's lane sums. -/
theorem scratch_middle (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x512 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i) (x0 : Vec F S512x1 .f32) (x1 : Vec F S1x512 .f32) (x2 : Vec F S512x1 .f32) (x3 : Vec F S1x512 .f32) (x4 : Vec F S512x1 .f32) (x5 : Vec F S1x512 .f32) (x6 : Vec F S512x1 .f32) (x7 : Vec F S1x512 .f32) (x8 : Vec F S512x1 .f32) (x9 : Vec F S1x512 .f32) (xs0 : Vec F S512x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = step i x0 x1 x2 x3 x4 x5 x6 x7 x8 x9 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1) hz, View.ld_unit_zero (S := S1x512) hz]
  rfl

/-- J = 8: the same for the carried column, -/
theorem scratch_last (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x512 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x1 .f32) (x1 : Vec F S1x512 .f32) (x2 : Vec F S512x1 .f32) (x3 : Vec F S1x512 .f32) (x4 : Vec F S512x1 .f32) (x5 : Vec F S1x512 .f32) (x6 : Vec F S512x1 .f32) (x7 : Vec F S1x512 .f32) (x8 : Vec F S512x1 .f32) (x9 : Vec F S1x512 .f32) (xs0 : Vec F S512x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = step i x0 x1 x2 x3 x4 x5 x6 x7 x8 x9 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1) hz, View.ld_unit_zero (S := S1x512) hz]
  rfl

/-- and the output block holds the finished column. -/
theorem out_last (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S1x512 .f32) (harg7 : arg7.IsWhole) (arg8 : Memref sig .tc .vmem S512x1 .f32) (harg8 : arg8.IsWhole) (arg9 : Memref sig .tc .vmem S1x512 .f32) (harg9 : arg9.IsWhole) (arg10 : Memref sig .tc .vmem S512x1 .f32) (harg10 : arg10.IsWhole) (arg11 : Memref sig .tc .vmem S1x512 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i) (x0 : Vec F S512x1 .f32) (x1 : Vec F S1x512 .f32) (x2 : Vec F S512x1 .f32) (x3 : Vec F S1x512 .f32) (x4 : Vec F S512x1 .f32) (x5 : Vec F S1x512 .f32) (x6 : Vec F S512x1 .f32) (x7 : Vec F S1x512 .f32) (x8 : Vec F S512x1 .f32) (x9 : Vec F S1x512 .f32) (xs0 : Vec F S512x1 .f32) :
    out0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0 = step i x0 x1 x2 x3 x4 x5 x6 x7 x8 x9 xs0 := by
  unfold out0_C_10
  rw [View.read_writes_eq_canon _ _ _ (cover0_C_10 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 x9 xs0)]
  unfold kernelRun0_C
  dsimp only
  sl_unfold_words
  rw [View.canon_unit_zero hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x1) hz, View.ld_unit_zero (S := S1x512) hz]
  rfl

end Cert.KernelIdeal.Pieces

end
-- ==== Proof.EntryDefs.lean ====
/-
  What the region finds in its ten operand arrays, named.

  Before the region the program computes, from its arguments, the centres' coordinates x and y (a gather of the
  placement vector at the macro indices plus half the extents, joined with the boundary points), keeps the extents
  sx, sy, and takes the areas a = sx · sy; each of the five vectors of 4252 entries is continued by a constant to 4608
  entries (x, y and a by 0, the extents by 1) and laid out once as a column and once as a row. The five vectors are
  named here as the stages of the reference's program at the same arguments (the two programs compute them by the
  same operations), `padded` is the continuation as an array, `ext` the same as a function of a natural number.
-/
import proofs.«151115_j71519795413200_1_alg».proof.Proof.Gen.KernelIdeal.Frame.Runs
import proofs.«151115_j71519795413200_1_alg».proof.Proof.Gen.ReferenceIdeal.Read
import Idealize.ShloMosaic.Lib.ValueIdx

noncomputable section

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ) (c : Dev nD)

/-- The centres' x-coordinates, y-coordinates, the two extents and the areas. -/
def xs : S4252.Idx → EReal := Cert.ReferenceIdeal.Read.val_main_v24 (F := Ideal) (m ((c : Thread nD τ).loc main_arg0)) (m ((c : Thread nD τ).loc main_arg1)) (m ((c : Thread nD τ).loc main_arg3)) (m ((c : Thread nD τ).loc main_arg5))
def ys : S4252.Idx → EReal := Cert.ReferenceIdeal.Read.val_main_v25 (F := Ideal) (m ((c : Thread nD τ).loc main_arg0)) (m ((c : Thread nD τ).loc main_arg2)) (m ((c : Thread nD τ).loc main_arg4)) (m ((c : Thread nD τ).loc main_arg5))
def sxs : S4252.Idx → EReal := (m ((c : Thread nD τ).loc main_arg1))
def sys : S4252.Idx → EReal := (m ((c : Thread nD τ).loc main_arg2))
def areas : S4252.Idx → EReal := Cert.ReferenceIdeal.Read.val_main_v90 (F := Ideal) (m ((c : Thread nD τ).loc main_arg1)) (m ((c : Thread nD τ).loc main_arg2))

/-- A vector of 4252 entries continued by the constant of word `w` to 4608 entries. -/
def padded (x : S4252.Idx → EReal) (w : BitVec 32) : S4608.Idx → EReal :=
  pad S4608 ![0] ![356] ![0] x (constant (F := Ideal) S_ .f32 w) pads_S4252_S4608_03560 h_S_

/-- The same continuation as a function of a natural number (the constant from 4252 on). -/
def ext (x : S4252.Idx → EReal) (w : BitVec 32) (n : ℕ) : EReal :=
  if h : n < 4252 then x (ix1 ⟨n, h⟩) else Ideal.ofBits .f32 w

end Cert.KernelIdeal.Entry

end
-- ==== Proof.EntryCols.lean ====
/-
  The five column operands of the region (windows 0, 2, 4, 6, 8), and the total area, as the region finds them:
  each column is its vector continued to 4608 entries and laid out as a 4608 × 1 array; the total area is the
  reference's own sum of the areas.
-/
import proofs.«151115_j71519795413200_1_alg».proof.Proof.EntryDefs
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Entry

open Cert.KernelIdeal Cert.KernelIdeal.Gen

variable (m : (ℓ : Loc nD τ sig) → Buf (Elt Ideal) ℓ) (c : Dev nD)

set_option maxHeartbeats 8000000 in
theorem col_x : (V m c main_v33 : S4608x1.Idx → EReal) = shapeCast S4608x1 (padded (xs m c) 0x00000000#32) shapeCasts_S4608_S4608x1 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
theorem col_y : (V m c main_v35 : S4608x1.Idx → EReal) = shapeCast S4608x1 (padded (ys m c) 0x00000000#32) shapeCasts_S4608_S4608x1 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
theorem col_sx : (V m c main_v37 : S4608x1.Idx → EReal) = shapeCast S4608x1 (padded (sxs m c) 0x3F800000#32) shapeCasts_S4608_S4608x1 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
theorem col_sy : (V m c main_v39 : S4608x1.Idx → EReal) = shapeCast S4608x1 (padded (sys m c) 0x3F800000#32) shapeCasts_S4608_S4608x1 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
theorem col_a : (V m c main_v41 : S4608x1.Idx → EReal) = shapeCast S4608x1 (padded (areas m c) 0x00000000#32) shapeCasts_S4608_S4608x1 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
/-- The sum of the areas, computed before the region, is the reference's. -/
theorem total_area : (V m c main_v27 : S_.Idx → EReal)
    = Cert.ReferenceIdeal.Read.val_main_v98 (F := Ideal) (m ((c : Thread nD τ).loc main_arg1)) (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

end Cert.KernelIdeal.Entry

end
-- ==== Proof.EntryRows.lean ====
/-
  The five row operands of the region (windows 1, 3, 5, 7, 9) as the region finds them: each is its vector
  continued to 4608 entries and laid out as a 1 × 4608 array.
-/
import proofs.«151115_j71519795413200_1_alg».proof.Proof.EntryDefs
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Entry

open Cert.KernelIdeal Cert.KernelIdeal.Gen

variable (m : (ℓ : Loc nD τ sig) → Buf (Elt Ideal) ℓ) (c : Dev nD)

set_option maxHeartbeats 8000000 in
theorem row_x : (V m c main_v34 : S1x4608.Idx → EReal) = shapeCast S1x4608 (padded (xs m c) 0x00000000#32) shapeCasts_S4608_S1x4608 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
theorem row_y : (V m c main_v36 : S1x4608.Idx → EReal) = shapeCast S1x4608 (padded (ys m c) 0x00000000#32) shapeCasts_S4608_S1x4608 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
theorem row_sx : (V m c main_v38 : S1x4608.Idx → EReal) = shapeCast S1x4608 (padded (sxs m c) 0x3F800000#32) shapeCasts_S4608_S1x4608 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
theorem row_sy : (V m c main_v40 : S1x4608.Idx → EReal) = shapeCast S1x4608 (padded (sys m c) 0x3F800000#32) shapeCasts_S4608_S1x4608 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

set_option maxHeartbeats 8000000 in
theorem row_a : (V m c main_v42 : S1x4608.Idx → EReal) = shapeCast S1x4608 (padded (areas m c) 0x00000000#32) shapeCasts_S4608_S1x4608 := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp <;> rfl

end Cert.KernelIdeal.Entry

end
-- ==== Proof.EntryAt.lean ====
/-
  The ten operand arrays read entry by entry: entry k of a column array, and entry k of the matching row array, is
  the vector's entry k for k < 4252 and the continuation constant from there on (`ext`).
-/
import proofs.«151115_j71519795413200_1_alg».proof.Proof.EntryCols
import proofs.«151115_j71519795413200_1_alg».proof.Proof.EntryRows
import proofs.«151115_j71519795413200_1_alg».proof.Proof.LibColumn
import Idealize.ShloMosaic.Lib.ValueLayout
import Idealize.ShloMosaic.Lib.KernelVsHost

noncomputable section

open Idealize.ShloMosaic Idealize.ShloMosaic.TcCoe Idealize.SL.Sem Idealize.ShloMosaic.ValueIdx

namespace Cert.KernelIdeal.Entry

open Cert.KernelIdeal Cert.KernelIdeal.Gen

variable (m : (ℓ : Loc nD τ sig) → Buf (Elt Ideal) ℓ) (c : Dev nD)

/-- The continued vector at entry k. -/
theorem padded_apply (x : S4252.Idx → EReal) (w : BitVec 32) (k : Fin 4608) : padded x w (ix1 k) = ext x w k.val := by
  unfold padded ext
  by_cases h : k.val < 4252
  · rw [dif_pos h]
    exact pad_apply_of_inside ![0] ![356] ![0] x _ pads_S4252_S4608_03560 h_S_ (ix1 k) (ix1 ⟨k.val, h⟩)
      (fun a => by match a with | ⟨0, _⟩ => show k.val = 0 + k.val * (0 + 1); omega)
  · rw [dif_neg h]
    exact pad_apply_of_not_inside ![0] ![356] ![0] x _ pads_S4252_S4608_03560 h_S_ (ix1 k) (0 : Fin 1)
      (fun hc => h (by have h3 : (k.val - 0) / (0 + 1) < 4252 := hc.2.2; omega))

theorem col_at (A : S4608x1.Idx → EReal) (x : S4252.Idx → EReal) (w : BitVec 32)
    (hA : A = shapeCast S4608x1 (padded x w) shapeCasts_S4608_S4608x1) (k : Fin 4608) :
    A (ix2 k (0 : Fin 1)) = ext x w k.val := by
  rw [hA]; exact (LibColumn.shapeCast_a_a1_apply _ _ k 0).trans (padded_apply x w k)

theorem row_at (A : S1x4608.Idx → EReal) (x : S4252.Idx → EReal) (w : BitVec 32)
    (hA : A = shapeCast S1x4608 (padded x w) shapeCasts_S4608_S1x4608) (k : Fin 4608) :
    A (ix2 (0 : Fin 1) k) = ext x w k.val := by
  rw [hA]; exact (shapeCast_a_1a_apply _ _ 0 k).trans (padded_apply x w k)

end Cert.KernelIdeal.Entry

end
-- ==== Proof.Accumulate.lean ====
/-
  The grid walk, as values: what the carried column and the output blocks hold point by point.

  Grid point t is (I, J) = (t / 9, t mod 9): row block I, lane block J. The column block of window 2k at that point is
  rows 512·I … 512·I + 511 of its array, the row block of window 2k + 1 lanes 512·J … 512·J + 511 (`blk_*`); so the
  body's update (`BlockValue.step_apply`) adds, at row r, the masked overlaps of the pairs (512·I + r, 512·J + l)
  (`point_step`). By induction along a row of the grid the carried column after point (I, J) holds, at row r, the sum of
  the masked overlaps over the lanes of blocks 0 … J (`acc_eq`); at J = 8 that is the whole masked row of the
  4608 × 4608 square, and it is what the point writes back (`flushed_eq`). The nine write-backs tile the output
  array, which therefore ends holding the masked row sums (`final`).
-/
import proofs.«151115_j71519795413200_1_alg».proof.Proof.Gen.KernelIdeal.Frame
import proofs.«151115_j71519795413200_1_alg».proof.Proof.Pieces
import proofs.«151115_j71519795413200_1_alg».proof.Proof.BlockValue
import proofs.«151115_j71519795413200_1_alg».proof.Proof.EntryAt
import proofs.«151115_j71519795413200_1_alg».proof.Proof.Overlap
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Accumulate

open Cert.KernelIdeal Cert.KernelIdeal.Gen Cert.KernelIdeal.BlockValue Cert.KernelIdeal.Entry Cert.Overlap

variable (m : (ℓ : Loc nD τ sig) → Buf (Elt Ideal) ℓ) (c : Dev nD)

local notation "Z" => (0x00000000#32 : BitVec 32)
local notation "ONE" => (0x3F800000#32 : BitVec 32)

/-- The overlap of the pair of padded indices (a, b). -/
def pairOverlap (a b : ℕ) : EReal :=
  cell (ext (xs m c) Z a) (ext (xs m c) Z b) (ext (ys m c) Z a) (ext (ys m c) Z b)
    (ext (sxs m c) ONE a) (ext (sxs m c) ONE b) (ext (sys m c) ONE a) (ext (sys m c) ONE b)
    (ext (areas m c) Z a) (ext (areas m c) Z b)

/-- … kept where both are real points and the first comes before the second. -/
def masked (a b : ℕ) : EReal := if a < 4252 ∧ b < 4252 ∧ a < b then pairOverlap m c a b else 0

/-! ## Where the blocks sit -/

theorem coords_facts : ∀ t : Fin cfg0.N, (grid0.coords t 0).val = t.val / 9 ∧ (grid0.coords t 1).val = t.val % 9 :=
  (by decide +kernel : ∀ t : Fin grid0.N, _)
theorem idx_0 : ∀ t : Fin cfg0.N, win0_0.index t (0 : Fin 2) = (grid0.coords t 0).val ∧ win0_0.index t (1 : Fin 2) = 0 :=
  (by decide +kernel : ∀ t : Fin grid0.N, _)
theorem idx_2 : ∀ t : Fin cfg0.N, win0_2.index t (0 : Fin 2) = (grid0.coords t 0).val ∧ win0_2.index t (1 : Fin 2) = 0 :=
  (by decide +kernel : ∀ t : Fin grid0.N, _)
theorem idx_4 : ∀ t : Fin cfg0.N, win0_4.index t (0 : Fin 2) = (grid0.coords t 0).val ∧ win0_4.index t (1 : Fin 2) = 0 :=
  (by decide +kernel : ∀ t : Fin grid0.N, _)
theorem idx_6 : ∀ t : Fin cfg0.N, win0_6.index t (0 : Fin 2) = (grid0.coords t 0).val ∧ win0_6.index t (1 : Fin 2) = 0 :=
  (by decide +kernel : ∀ t : Fin grid0.N, _)
theorem idx_8 : ∀ t : Fin cfg0.N, win0_8.index t (0 : Fin 2) = (grid0.coords t 0).val ∧ win0_8.index t (1 : Fin 2) = 0 :=
  (by decide +kernel : ∀ t : Fin grid0.N, _)
theorem idx_10 : ∀ t : Fin cfg0.N, win0_10.index t (0 : Fin 2) = (grid0.coords t 0).val ∧ win0_10.index t (1 : Fin 2) = 0 :=
  (by decide +kernel : ∀ t : Fin grid0.N, _)
theorem idx_1 : ∀ t : Fin cfg0.N, win0_1.index t (0 : Fin 2) = 0 ∧ win0_1.index t (1 : Fin 2) = (grid0.coords t 1).val :=
  (by decide +kernel : ∀ t : Fin grid0.N, _)
theorem idx_3 : ∀ t : Fin cfg0.N, win0_3.index t (0 : Fin 2) = 0 ∧ win0_3.index t (1 : Fin 2) = (grid0.coords t 1).val :=
  (by decide +kernel : ∀ t : Fin grid0.N, _)
theorem idx_5 : ∀ t : Fin cfg0.N, win0_5.index t (0 : Fin 2) = 0 ∧ win0_5.index t (1 : Fin 2) = (grid0.coords t 1).val :=
  (by decide +kernel : ∀ t : Fin grid0.N, _)
theorem idx_7 : ∀ t : Fin cfg0.N, win0_7.index t (0 : Fin 2) = 0 ∧ win0_7.index t (1 : Fin 2) = (grid0.coords t 1).val :=
  (by decide +kernel : ∀ t : Fin grid0.N, _)
theorem idx_9 : ∀ t : Fin cfg0.N, win0_9.index t (0 : Fin 2) = 0 ∧ win0_9.index t (1 : Fin 2) = (grid0.coords t 1).val :=
  (by decide +kernel : ∀ t : Fin grid0.N, _)

theorem blk_0 (t : Fin cfg0.N) (r : Fin 512) :
    iblk m c 0 t (ix2 r (0 : Fin 1)) = ext (xs m c) Z ((grid0.coords t 0).val * 512 + r.val) := by
  have hI : (grid0.coords t 0).val < 9 := (grid0.coords t 0).isLt
  have hr : r.val < 512 := r.isLt
  have hk : (grid0.coords t 0).val * 512 + r.val < 4608 := by omega
  unfold iblk
  rw [View.read_apply]
  show (V m c main_v33 : S4608x1.Idx → EReal) (((cfg0.win 0).blk t).view.emb (ix2 r (0 : Fin 1))) = _
  have he : ((cfg0.win 0).blk t).view.emb (ix2 r (0 : Fin 1)) = ix2 (⟨_, hk⟩ : Fin 4608) (0 : Fin 1) := by
    funext a; apply Fin.ext
    match a with
    | ⟨0, _⟩ => show win0_0.index t (0 : Fin 2) * 512 + 1 * r.val = (grid0.coords t 0).val * 512 + r.val; rw [(idx_0 t).1]; omega
    | ⟨1, _⟩ => show win0_0.index t (1 : Fin 2) * 1 + 1 * 0 = 0; rw [(idx_0 t).2]
  rw [he]
  exact col_at _ _ _ (col_x m c) ⟨_, hk⟩

theorem blk_2 (t : Fin cfg0.N) (r : Fin 512) :
    iblk m c 2 t (ix2 r (0 : Fin 1)) = ext (ys m c) Z ((grid0.coords t 0).val * 512 + r.val) := by
  have hI : (grid0.coords t 0).val < 9 := (grid0.coords t 0).isLt
  have hr : r.val < 512 := r.isLt
  have hk : (grid0.coords t 0).val * 512 + r.val < 4608 := by omega
  unfold iblk
  rw [View.read_apply]
  show (V m c main_v35 : S4608x1.Idx → EReal) (((cfg0.win 2).blk t).view.emb (ix2 r (0 : Fin 1))) = _
  have he : ((cfg0.win 2).blk t).view.emb (ix2 r (0 : Fin 1)) = ix2 (⟨_, hk⟩ : Fin 4608) (0 : Fin 1) := by
    funext a; apply Fin.ext
    match a with
    | ⟨0, _⟩ => show win0_2.index t (0 : Fin 2) * 512 + 1 * r.val = (grid0.coords t 0).val * 512 + r.val; rw [(idx_2 t).1]; omega
    | ⟨1, _⟩ => show win0_2.index t (1 : Fin 2) * 1 + 1 * 0 = 0; rw [(idx_2 t).2]
  rw [he]
  exact col_at _ _ _ (col_y m c) ⟨_, hk⟩

theorem blk_4 (t : Fin cfg0.N) (r : Fin 512) :
    iblk m c 4 t (ix2 r (0 : Fin 1)) = ext (sxs m c) ONE ((grid0.coords t 0).val * 512 + r.val) := by
  have hI : (grid0.coords t 0).val < 9 := (grid0.coords t 0).isLt
  have hr : r.val < 512 := r.isLt
  have hk : (grid0.coords t 0).val * 512 + r.val < 4608 := by omega
  unfold iblk
  rw [View.read_apply]
  show (V m c main_v37 : S4608x1.Idx → EReal) (((cfg0.win 4).blk t).view.emb (ix2 r (0 : Fin 1))) = _
  have he : ((cfg0.win 4).blk t).view.emb (ix2 r (0 : Fin 1)) = ix2 (⟨_, hk⟩ : Fin 4608) (0 : Fin 1) := by
    funext a; apply Fin.ext
    match a with
    | ⟨0, _⟩ => show win0_4.index t (0 : Fin 2) * 512 + 1 * r.val = (grid0.coords t 0).val * 512 + r.val; rw [(idx_4 t).1]; omega
    | ⟨1, _⟩ => show win0_4.index t (1 : Fin 2) * 1 + 1 * 0 = 0; rw [(idx_4 t).2]
  rw [he]
  exact col_at _ _ _ (col_sx m c) ⟨_, hk⟩

theorem blk_6 (t : Fin cfg0.N) (r : Fin 512) :
    iblk m c 6 t (ix2 r (0 : Fin 1)) = ext (sys m c) ONE ((grid0.coords t 0).val * 512 + r.val) := by
  have hI : (grid0.coords t 0).val < 9 := (grid0.coords t 0).isLt
  have hr : r.val < 512 := r.isLt
  have hk : (grid0.coords t 0).val * 512 + r.val < 4608 := by omega
  unfold iblk
  rw [View.read_apply]
  show (V m c main_v39 : S4608x1.Idx → EReal) (((cfg0.win 6).blk t).view.emb (ix2 r (0 : Fin 1))) = _
  have he : ((cfg0.win 6).blk t).view.emb (ix2 r (0 : Fin 1)) = ix2 (⟨_, hk⟩ : Fin 4608) (0 : Fin 1) := by
    funext a; apply Fin.ext
    match a with
    | ⟨0, _⟩ => show win0_6.index t (0 : Fin 2) * 512 + 1 * r.val = (grid0.coords t 0).val * 512 + r.val; rw [(idx_6 t).1]; omega
    | ⟨1, _⟩ => show win0_6.index t (1 : Fin 2) * 1 + 1 * 0 = 0; rw [(idx_6 t).2]
  rw [he]
  exact col_at _ _ _ (col_sy m c) ⟨_, hk⟩

theorem blk_8 (t : Fin cfg0.N) (r : Fin 512) :
    iblk m c 8 t (ix2 r (0 : Fin 1)) = ext (areas m c) Z ((grid0.coords t 0).val * 512 + r.val) := by
  have hI : (grid0.coords t 0).val < 9 := (grid0.coords t 0).isLt
  have hr : r.val < 512 := r.isLt
  have hk : (grid0.coords t 0).val * 512 + r.val < 4608 := by omega
  unfold iblk
  rw [View.read_apply]
  show (V m c main_v41 : S4608x1.Idx → EReal) (((cfg0.win 8).blk t).view.emb (ix2 r (0 : Fin 1))) = _
  have he : ((cfg0.win 8).blk t).view.emb (ix2 r (0 : Fin 1)) = ix2 (⟨_, hk⟩ : Fin 4608) (0 : Fin 1) := by
    funext a; apply Fin.ext
    match a with
    | ⟨0, _⟩ => show win0_8.index t (0 : Fin 2) * 512 + 1 * r.val = (grid0.coords t 0).val * 512 + r.val; rw [(idx_8 t).1]; omega
    | ⟨1, _⟩ => show win0_8.index t (1 : Fin 2) * 1 + 1 * 0 = 0; rw [(idx_8 t).2]
  rw [he]
  exact col_at _ _ _ (col_a m c) ⟨_, hk⟩

theorem blk_1 (t : Fin cfg0.N) (l : Fin 512) :
    iblk m c 1 t (ix2 (0 : Fin 1) l) = ext (xs m c) Z ((grid0.coords t 1).val * 512 + l.val) := by
  have hJ : (grid0.coords t 1).val < 9 := (grid0.coords t 1).isLt
  have hl : l.val < 512 := l.isLt
  have hk : (grid0.coords t 1).val * 512 + l.val < 4608 := by omega
  unfold iblk
  rw [View.read_apply]
  show (V m c main_v34 : S1x4608.Idx → EReal) (((cfg0.win 1).blk t).view.emb (ix2 (0 : Fin 1) l)) = _
  have he : ((cfg0.win 1).blk t).view.emb (ix2 (0 : Fin 1) l) = ix2 (0 : Fin 1) (⟨_, hk⟩ : Fin 4608) := by
    funext a; apply Fin.ext
    match a with
    | ⟨0, _⟩ => show win0_1.index t (0 : Fin 2) * 1 + 1 * 0 = 0; rw [(idx_1 t).1]
    | ⟨1, _⟩ => show win0_1.index t (1 : Fin 2) * 512 + 1 * l.val = (grid0.coords t 1).val * 512 + l.val; rw [(idx_1 t).2]; omega
  rw [he]
  exact row_at _ _ _ (row_x m c) ⟨_, hk⟩

theorem blk_3 (t : Fin cfg0.N) (l : Fin 512) :
    iblk m c 3 t (ix2 (0 : Fin 1) l) = ext (ys m c) Z ((grid0.coords t 1).val * 512 + l.val) := by
  have hJ : (grid0.coords t 1).val < 9 := (grid0.coords t 1).isLt
  have hl : l.val < 512 := l.isLt
  have hk : (grid0.coords t 1).val * 512 + l.val < 4608 := by omega
  unfold iblk
  rw [View.read_apply]
  show (V m c main_v36 : S1x4608.Idx → EReal) (((cfg0.win 3).blk t).view.emb (ix2 (0 : Fin 1) l)) = _
  have he : ((cfg0.win 3).blk t).view.emb (ix2 (0 : Fin 1) l) = ix2 (0 : Fin 1) (⟨_, hk⟩ : Fin 4608) := by
    funext a; apply Fin.ext
    match a with
    | ⟨0, _⟩ => show win0_3.index t (0 : Fin 2) * 1 + 1 * 0 = 0; rw [(idx_3 t).1]
    | ⟨1, _⟩ => show win0_3.index t (1 : Fin 2) * 512 + 1 * l.val = (grid0.coords t 1).val * 512 + l.val; rw [(idx_3 t).2]; omega
  rw [he]
  exact row_at _ _ _ (row_y m c) ⟨_, hk⟩

theorem blk_5 (t : Fin cfg0.N) (l : Fin 512) :
    iblk m c 5 t (ix2 (0 : Fin 1) l) = ext (sxs m c) ONE ((grid0.coords t 1).val * 512 + l.val) := by
  have hJ : (grid0.coords t 1).val < 9 := (grid0.coords t 1).isLt
  have hl : l.val < 512 := l.isLt
  have hk : (grid0.coords t 1).val * 512 + l.val < 4608 := by omega
  unfold iblk
  rw [View.read_apply]
  show (V m c main_v38 : S1x4608.Idx → EReal) (((cfg0.win 5).blk t).view.emb (ix2 (0 : Fin 1) l)) = _
  have he : ((cfg0.win 5).blk t).view.emb (ix2 (0 : Fin 1) l) = ix2 (0 : Fin 1) (⟨_, hk⟩ : Fin 4608) := by
    funext a; apply Fin.ext
    match a with
    | ⟨0, _⟩ => show win0_5.index t (0 : Fin 2) * 1 + 1 * 0 = 0; rw [(idx_5 t).1]
    | ⟨1, _⟩ => show win0_5.index t (1 : Fin 2) * 512 + 1 * l.val = (grid0.coords t 1).val * 512 + l.val; rw [(idx_5 t).2]; omega
  rw [he]
  exact row_at _ _ _ (row_sx m c) ⟨_, hk⟩

theorem blk_7 (t : Fin cfg0.N) (l : Fin 512) :
    iblk m c 7 t (ix2 (0 : Fin 1) l) = ext (sys m c) ONE ((grid0.coords t 1).val * 512 + l.val) := by
  have hJ : (grid0.coords t 1).val < 9 := (grid0.coords t 1).isLt
  have hl : l.val < 512 := l.isLt
  have hk : (grid0.coords t 1).val * 512 + l.val < 4608 := by omega
  unfold iblk
  rw [View.read_apply]
  show (V m c main_v40 : S1x4608.Idx → EReal) (((cfg0.win 7).blk t).view.emb (ix2 (0 : Fin 1) l)) = _
  have he : ((cfg0.win 7).blk t).view.emb (ix2 (0 : Fin 1) l) = ix2 (0 : Fin 1) (⟨_, hk⟩ : Fin 4608) := by
    funext a; apply Fin.ext
    match a with
    | ⟨0, _⟩ => show win0_7.index t (0 : Fin 2) * 1 + 1 * 0 = 0; rw [(idx_7 t).1]
    | ⟨1, _⟩ => show win0_7.index t (1 : Fin 2) * 512 + 1 * l.val = (grid0.coords t 1).val * 512 + l.val; rw [(idx_7 t).2]; omega
  rw [he]
  exact row_at _ _ _ (row_sy m c) ⟨_, hk⟩

theorem blk_9 (t : Fin cfg0.N) (l : Fin 512) :
    iblk m c 9 t (ix2 (0 : Fin 1) l) = ext (areas m c) Z ((grid0.coords t 1).val * 512 + l.val) := by
  have hJ : (grid0.coords t 1).val < 9 := (grid0.coords t 1).isLt
  have hl : l.val < 512 := l.isLt
  have hk : (grid0.coords t 1).val * 512 + l.val < 4608 := by omega
  unfold iblk
  rw [View.read_apply]
  show (V m c main_v42 : S1x4608.Idx → EReal) (((cfg0.win 9).blk t).view.emb (ix2 (0 : Fin 1) l)) = _
  have he : ((cfg0.win 9).blk t).view.emb (ix2 (0 : Fin 1) l) = ix2 (0 : Fin 1) (⟨_, hk⟩ : Fin 4608) := by
    funext a; apply Fin.ext
    match a with
    | ⟨0, _⟩ => show win0_9.index t (0 : Fin 2) * 1 + 1 * 0 = 0; rw [(idx_9 t).1]
    | ⟨1, _⟩ => show win0_9.index t (1 : Fin 2) * 512 + 1 * l.val = (grid0.coords t 1).val * 512 + l.val; rw [(idx_9 t).2]; omega
  rw [he]
  exact row_at _ _ _ (row_a m c) ⟨_, hk⟩

/-! ## One point -/

/-- The body's update at a point whose blocks are the rows of block `i 0` and the lanes of block `i 1`. -/
theorem step_masked (i : grid0.Coords) (x0 : Vec Ideal S512x1 .f32) (x1 : Vec Ideal S1x512 .f32) (x2 : Vec Ideal S512x1 .f32) (x3 : Vec Ideal S1x512 .f32) (x4 : Vec Ideal S512x1 .f32) (x5 : Vec Ideal S1x512 .f32) (x6 : Vec Ideal S512x1 .f32) (x7 : Vec Ideal S1x512 .f32) (x8 : Vec Ideal S512x1 .f32) (x9 : Vec Ideal S1x512 .f32) (acc : Vec Ideal S512x1 .f32)
    (h0 : ∀ r : Fin 512, x0 (ix2 r (0 : Fin 1)) = ext (xs m c) Z ((i 0).val * 512 + r.val))
    (h1 : ∀ l : Fin 512, x1 (ix2 (0 : Fin 1) l) = ext (xs m c) Z ((i 1).val * 512 + l.val))
    (h2 : ∀ r : Fin 512, x2 (ix2 r (0 : Fin 1)) = ext (ys m c) Z ((i 0).val * 512 + r.val))
    (h3 : ∀ l : Fin 512, x3 (ix2 (0 : Fin 1) l) = ext (ys m c) Z ((i 1).val * 512 + l.val))
    (h4 : ∀ r : Fin 512, x4 (ix2 r (0 : Fin 1)) = ext (sxs m c) ONE ((i 0).val * 512 + r.val))
    (h5 : ∀ l : Fin 512, x5 (ix2 (0 : Fin 1) l) = ext (sxs m c) ONE ((i 1).val * 512 + l.val))
    (h6 : ∀ r : Fin 512, x6 (ix2 r (0 : Fin 1)) = ext (sys m c) ONE ((i 0).val * 512 + r.val))
    (h7 : ∀ l : Fin 512, x7 (ix2 (0 : Fin 1) l) = ext (sys m c) ONE ((i 1).val * 512 + l.val))
    (h8 : ∀ r : Fin 512, x8 (ix2 r (0 : Fin 1)) = ext (areas m c) Z ((i 0).val * 512 + r.val))
    (h9 : ∀ l : Fin 512, x9 (ix2 (0 : Fin 1) l) = ext (areas m c) Z ((i 1).val * 512 + l.val))
    (r : Fin 512) :
    step i x0 x1 x2 x3 x4 x5 x6 x7 x8 x9 acc (ix2 r (0 : Fin 1)) = acc (ix2 r (0 : Fin 1))
      + ∑ l : Fin 512, masked m c ((i 0).val * 512 + r.val) ((i 1).val * 512 + l.val) := by
  rw [step_apply]
  refine congrArg _ (Finset.sum_congr rfl fun l _ => ?_)
  rw [h0 r, h1 l, h2 r, h3 l, h4 r, h5 l, h6 r, h7 l, h8 r, h9 l]
  rfl

set_option maxHeartbeats 2000000 in
/-- The same at grid point t = (t / 9, t mod 9), over the point's own blocks. -/
theorem point_step (t : Fin cfg0.N) (acc : Vec Ideal S512x1 .f32) (r : Fin 512) :
    step (grid0.coords t) (iblk m c 0 t) (iblk m c 1 t) (iblk m c 2 t) (iblk m c 3 t) (iblk m c 4 t) (iblk m c 5 t) (iblk m c 6 t) (iblk m c 7 t) (iblk m c 8 t) (iblk m c 9 t) acc (ix2 r (0 : Fin 1)) = acc (ix2 r (0 : Fin 1))
      + ∑ l : Fin 512, masked m c (t.val / 9 * 512 + r.val) (t.val % 9 * 512 + l.val) := by
  have h := step_masked m c (grid0.coords t) (iblk m c 0 t) (iblk m c 1 t) (iblk m c 2 t) (iblk m c 3 t) (iblk m c 4 t) (iblk m c 5 t) (iblk m c 6 t) (iblk m c 7 t) (iblk m c 8 t) (iblk m c 9 t) acc
    (blk_0 m c t) (blk_1 m c t) (blk_2 m c t) (blk_3 m c t) (blk_4 m c t) (blk_5 m c t) (blk_6 m c t) (blk_7 m c t)
    (blk_8 m c t) (blk_9 m c t) r
  rw [(coords_facts t).1, (coords_facts t).2] at h
  exact h

/-! ## The walk -/

set_option maxHeartbeats 4000000 in
/-- The carried column after point t: the body's update of the zero column at the first lane block, of what the
    point before left otherwise. -/
theorem scratch_at (t : Fin cfg0.N) :
    (outsAt0 m c t.val t.isLt).2 = step (grid0.coords t) (iblk m c 0 t) (iblk m c 1 t) (iblk m c 2 t) (iblk m c 3 t) (iblk m c 4 t) (iblk m c 5 t) (iblk m c 6 t) (iblk m c 7 t) (iblk m c 8 t) (iblk m c 9 t)
      (if t.val % 9 = 0 then (k0_pay2 (F := Ideal)) else (outsAt0 m c (t.val - 1) (Nat.lt_of_le_of_lt (Nat.sub_le _ _) t.isLt)).2) := by
  by_cases h0 : t.val % 9 = 0
  · have h1 : ¬t.val % 9 = 8 := by omega
    rw [outsAt0_A m c t h0 h1, if_pos h0]
    exact Pieces.scratch_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)
  · by_cases h1 : t.val % 9 = 8
    · rw [outsAt0_C m c t h0 h1, if_neg h0]
      exact Pieces.scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2
    · rw [outsAt0_B m c t h0 h1, if_neg h0]
      exact Pieces.scratch_middle c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2

set_option maxHeartbeats 4000000 in
/-- At the last lane block the output block holds the carried column. -/
theorem out_at (t : Fin cfg0.N) (h1 : t.val % 9 = 8) :
    (outsAt0 m c t.val t.isLt).1 = (outsAt0 m c t.val t.isLt).2 := by
  have h0 : ¬t.val % 9 = 0 := by omega
  rw [outsAt0_C m c t h0 h1]
  exact (Pieces.out_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2).trans
    (Pieces.scratch_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).2).symm

/-- The zero column the first lane block starts from. -/
theorem zero_col (r : Fin 512) : (k0_pay2 (F := Ideal)) (ix2 r (0 : Fin 1)) = 0 := by
  unfold k0_pay2
  rw [shapeCast_self]
  exact Ideal.ofBits_zero_f32

/-- THE RUNNING SUM: after point t the carried column holds, at row r, the masked overlaps of row 512·(t / 9) + r summed
    over the lanes of blocks 0 … t mod 9. -/
theorem acc_eq (n : ℕ) (h : n < cfg0.N) (r : Fin 512) :
    (outsAt0 m c n h).2 (ix2 r (0 : Fin 1))
      = ∑ J ∈ Finset.range (n % 9 + 1), ∑ l : Fin 512, masked m c (n / 9 * 512 + r.val) (J * 512 + l.val) := by
  induction n using Nat.strong_induction_on with
  | _ n ih =>
    have hs := scratch_at m c ⟨n, h⟩
    rw [show (outsAt0 m c n h).2 = _ from hs, point_step]
    show _ + ∑ l : Fin 512, masked m c (n / 9 * 512 + r.val) (n % 9 * 512 + l.val) = _
    by_cases h0 : n % 9 = 0
    · rw [if_pos (show (⟨n, h⟩ : Fin cfg0.N).val % 9 = 0 from h0), zero_col, zero_add, h0, Finset.sum_range_one]
    · rw [if_neg (show ¬(⟨n, h⟩ : Fin cfg0.N).val % 9 = 0 from h0)]
      have hn : n - 1 < n := by omega
      have hq : (n - 1) / 9 = n / 9 := by omega
      have hm : (n - 1) % 9 + 1 = n % 9 := by omega
      have := ih (n - 1) hn (Nat.lt_of_le_of_lt (Nat.sub_le _ _) h)
      rw [hq, hm] at this
      show (outsAt0 m c (n - 1) _).2 (ix2 r (0 : Fin 1)) + _ = _
      rw [this, Finset.sum_range_succ]

/-! ## The output array -/

/-- The masked row sum of row `a` of the 4608 × 4608 square, lane block by lane block. -/
def rowSum (a : ℕ) : EReal := ∑ J ∈ Finset.range 9, ∑ l : Fin 512, masked m c a (J * 512 + l.val)

/-- What the output array ends holding: at (k, 0) the masked row sum of row k. -/
def rowSums : S4608x1.Idx → EReal := fun k => rowSum m c (k 0).val

/-- WHAT A WRITING POINT WRITES BACK is its block of `rowSums`. -/
theorem flushed_eq (t : Fin cfg0.N) (hf : (cfg0.win 10).flush t = true) :
    (dats m 0 c).flushed 10 t = ((cfg0.win 10).blk t).view.read (Elt Ideal) (rowSums m c) := by
  have h8 : t.val % 9 = 8 := (flush0_10 t).mp hf
  show (cfg0.win 10).cut (grid0.coords t) ((dats m 0 c).after 10 t) = _
  rw [after0_10, out_at m c t h8]
  funext y
  obtain ⟨r, u, rfl⟩ : ∃ (r : Fin 512) (u : Fin 1), y = ix2 r u := ⟨y 0, y 1, eq_ix2 y⟩
  obtain rfl : u = 0 := Subsingleton.elim _ _
  rw [View.read_apply]
  show (outsAt0 m c t.val t.isLt).2 (ix2 r (0 : Fin 1)) = rowSums m c (((cfg0.win 10).blk t).view.emb (ix2 r (0 : Fin 1)))
  rw [acc_eq m c t.val t.isLt r, h8]
  unfold rowSums rowSum
  have e : ((((cfg0.win 10).blk t).view.emb (ix2 r (0 : Fin 1))) 0).val = t.val / 9 * 512 + r.val := by
    show win0_10.index t (0 : Fin 2) * 512 + 1 * r.val = _
    rw [(idx_10 t).1, (coords_facts t).1]; omega
  rw [e]

/-- An index of the output array is in point t's block iff each coordinate is in the block's range. -/
theorem mem_blk (t : Fin cfg0.N) (i : S4608x1.Idx) :
    i ∈ ((cfg0.win 10).blk t).view.set ↔ ∀ a : Fin 2, win0_10.index t a * S512x1.size a ≤ (i a).val ∧ (i a).val < win0_10.index t a * S512x1.size a + S512x1.size a := by
  show i ∈ ((View.whole main_v43).slice (win0_10.rect t)).set ↔ _
  rw [View.set_slice_whole, Rect.mem_set_unit]
  exact Iff.rfl

/-- Every row block has its writing point. -/
theorem row_onto : ∀ q : Fin 9, ∃ t : Fin cfg0.N, t.val % 9 = 8 ∧ t.val / 9 = q.val :=
  (by decide +kernel : ∀ q : Fin 9, ∃ t : Fin grid0.N, t.val % 9 = 8 ∧ t.val / 9 = q.val)

/-- THE OUTPUT ARRAY after the region: the masked row sums. -/
theorem final : (dats m 0 c).arrAt 10 cfg0.N = rowSums m c :=
  (dats m 0 c).arrAt_eq_of_cover 10 (rowSums m c) (flushed_eq m c) fun i => by
    have hi0 : (i 0).val < 4608 := (i 0).isLt
    have hi1 : (i 1).val < 1 := (i 1).isLt
    obtain ⟨t, ht8, htq⟩ := row_onto ⟨(i 0).val / 512, by omega⟩
    refine ⟨t, (flush0_10 t).mpr ht8, ?_⟩
    rw [mem_blk]
    have e0 : win0_10.index t (0 : Fin 2) = (i 0).val / 512 := by rw [(idx_10 t).1, (coords_facts t).1]; exact htq
    have e1 : win0_10.index t (1 : Fin 2) = 0 := (idx_10 t).2
    intro a
    match a with
    | ⟨0, _⟩ => show win0_10.index t (0 : Fin 2) * 512 ≤ (i 0).val ∧ (i 0).val < win0_10.index t (0 : Fin 2) * 512 + 512; omega
    | ⟨1, _⟩ => show win0_10.index t (1 : Fin 2) * 1 ≤ (i 1).val ∧ (i 1).val < win0_10.index t (1 : Fin 2) * 1 + 1; omega

end Cert.KernelIdeal.Accumulate

end
-- ==== Proof.Result.lean ====
/-
  The kernel program's result.

  After the region the program adds up the output array (from zero), divides by the total area computed before the
  region, and squares. With the output array at the masked row sums (`Accumulate.final`) and the total area at the
  reference's own sum of the areas (`Entry.total_area`), the result is `tail` of those two; `run` restates the
  generated frame run with that value named.
-/
import proofs.«151115_j71519795413200_1_alg».proof.Proof.Gen.KernelIdeal.Frame
import proofs.«151115_j71519795413200_1_alg».proof.Proof.Accumulate
import proofs.«151115_j71519795413200_1_alg».proof.Proof.EntryCols
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo

namespace Cert.KernelIdeal.Result

open Cert.KernelIdeal Cert.KernelIdeal.Gen Cert.KernelIdeal.Accumulate Cert.KernelIdeal.Entry

variable (m : (ℓ : Loc nD τ sig) → Buf (Elt Ideal) ℓ) (ρ : Dev nD → PrngReg)

/-- (sum of the column from zero, over the total area) squared: the program's last three lines. -/
def tail (G : FVec Ideal S4608x1 .f32) (A : FVec Ideal S_ .f32) : FVec Ideal S_ .f32 :=
  mulf (Host.divf (Host.reduceAdd G (constant S_ .f32 0x00000000#32) reducesTo_S4608x1_S_d0_1 h_S_) A)
    (Host.divf (Host.reduceAdd G (constant S_ .f32 0x00000000#32) reducesTo_S4608x1_S_d0_1 h_S_) A)

/-- The result: the tail of the masked row sums and the reference's total area. -/
def result (c : Dev nD) : FVec Ideal S_ .f32 :=
  tail (rowSums m c) (Cert.ReferenceIdeal.Read.val_main_v98 (F := Ideal) (m ((c.tc : Thread nD τ).loc main_arg1)) (m ((c.tc : Thread nD τ).loc main_arg2)))

theorem tail_eq (c : Dev nD) :
    (Pipeline.afterTail₀ cfgs (dats m) 0 (V0 m) [hostOps1] c main_v46 : S_.Idx → EReal) = result m c := by
  unfold Pipeline.afterTail₀
  show StableHlo.after hostOps1 _ (Proc.devRef .tc main_v46) = _
  after_results
  have e43 : (Pipeline.withArrays (cfgs 0).spec c (V0 m c) (fun w => (dats m 0 c).arrAt w (cfgs 0).N)
      (Proc.devRef .tc main_v43) : S4608x1.Idx → EReal) = rowSums m c :=
    (Pipeline.withArrays_arr spec0 launch0.win.arr_inj c _ _ 10).trans (final m c)
  have e27 : (Pipeline.withArrays (cfgs 0).spec c (V0 m c) (fun w => (dats m 0 c).arrAt w (cfgs 0).N)
      (Proc.devRef .tc main_v27) : S_.Idx → EReal)
        = Cert.ReferenceIdeal.Read.val_main_v98 (F := Ideal) (m ((c.tc : Thread nD τ).loc main_arg1)) (m ((c.tc : Thread nD τ).loc main_arg2)) :=
    (Pipeline.withArrays_of_ne spec0 c (V0 m c) _ main_v27 (by decide)).trans (total_area m c)
  rw [e43, e27]
  rfl

/-- The frame run with the result named: every weakly fair execution ends with the result buffer at `result` and the
    arguments unchanged. -/
theorem run : θ_run defs (onTc (τ := τ) (main (F := Ideal))) ⟨m, fun _ => 0, ρ⟩ fun r => ∀ c : Dev nD,
      r.2.mem ((c.tc : Thread nD τ).loc main_v46) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v46 (Pipeline.mem_restRefs_of main_v46 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.RefValue.lean ====
/-
  The reference's program, read as a formula.

  Entry (p, q) of the reference's triangular matrix is the overlap of the pair (p, q) of the five vectors (the
  centres x, y — kept as the stages that compute them —, the extents, the areas) where p < q, and zero on and below
  the diagonal (`tri_apply`); the number the program divides by the total area and squares is zero plus the sum of
  all those entries (`total_apply`).
-/
import proofs.«151115_j71519795413200_1_alg».proof.Proof.Gen.ReferenceIdeal.Read
import proofs.«151115_j71519795413200_1_alg».proof.Proof.Overlap
import Idealize.ShloMosaic.Lib.ValueIdx
import Idealize.ShloMosaic.PureOps.Ideal.Laws
import proofs.«151115_j71519795413200_1_alg».proof.Proof.LibWordRemainder

set_option maxRecDepth 16384

noncomputable section

namespace Cert.ReferenceIdeal.RefValue

open Idealize.ShloMosaic Idealize.ShloMosaic.ValueIdx Cert.ReferenceIdeal Cert.ReferenceIdeal.Read Cert.Overlap

variable (x0 : (⟨S2000000, .f32⟩ : BufTy).Contents (Elt Ideal)) (x1 x2 : (⟨S4252, .f32⟩ : BufTy).Contents (Elt Ideal)) (x3 x4 : (⟨S252, .f32⟩ : BufTy).Contents (Elt Ideal)) (x5 : (⟨S4000, .i32⟩ : BufTy).Contents (Elt Ideal))

set_option maxHeartbeats 4000000 in
/-- The strictly-upper-triangular overlap matrix at (p, q). -/
theorem tri_apply (p q : Fin 4252) :
    val_main_v99 (F := Ideal) x0 x1 x2 x3 x4 x5 (ix2 p q)
      = if p.val < q.val then (cell (val_main_v24 (F := Ideal) x0 x1 x3 x5 (ix1 p)) (val_main_v24 (F := Ideal) x0 x1 x3 x5 (ix1 q))
          (val_main_v25 (F := Ideal) x0 x2 x4 x5 (ix1 p)) (val_main_v25 (F := Ideal) x0 x2 x4 x5 (ix1 q))
          (x1 (ix1 p)) (x1 (ix1 q)) (x2 (ix1 p)) (x2 (ix1 q))
          (val_main_v90 (F := Ideal) x1 x2 (ix1 p)) (val_main_v90 (F := Ideal) x1 x2 (ix1 q))) else 0 := by
  have e1 : idx_main_v26 (idx_main_v28 (ix2 p q)) = ix1 p := funext fun a => by match a with | ⟨0, _⟩ => rfl
  have e2 : idx_main_v27 (idx_main_v29 (ix2 p q)) = ix1 q := funext fun a => by match a with | ⟨0, _⟩ => rfl
  have e3 : idx_main_v32 (idx_main_v34 (ix2 p q)) = ix1 p := funext fun a => by match a with | ⟨0, _⟩ => rfl
  have e4 : idx_main_v33 (idx_main_v35 (ix2 p q)) = ix1 q := funext fun a => by match a with | ⟨0, _⟩ => rfl
  have e5 : idx_main_v38 (idx_main_v40 (ix2 p q)) = ix1 p := funext fun a => by match a with | ⟨0, _⟩ => rfl
  have e6 : idx_main_v39 (idx_main_v41 (ix2 p q)) = ix1 q := funext fun a => by match a with | ⟨0, _⟩ => rfl
  have e7 : idx_main_v45 (idx_main_v47 (ix2 p q)) = ix1 p := funext fun a => by match a with | ⟨0, _⟩ => rfl
  have e8 : idx_main_v46 (idx_main_v48 (ix2 p q)) = ix1 q := funext fun a => by match a with | ⟨0, _⟩ => rfl
  have e9 : idx_main_v91 (idx_main_v93 (ix2 p q)) = ix1 p := funext fun a => by match a with | ⟨0, _⟩ => rfl
  have e10 : idx_main_v92 (idx_main_v94 (ix2 p q)) = ix1 q := funext fun a => by match a with | ⟨0, _⟩ => rfl

  simp only [val_main_v99_apply, val_main_v26_apply, val_main_v27_apply, val_main_v28_apply, val_main_v29_apply, val_main_v30_apply, val_main_v31_apply, val_main_v32_apply, val_main_v33_apply, val_main_v34_apply, val_main_v35_apply, val_main_v36_apply, val_main_v37_apply, val_main_v38_apply, val_main_v39_apply, val_main_v40_apply, val_main_v41_apply, val_main_v42_apply, val_main_cst_5_apply, val_main_v43_apply, val_main_v44_apply, val_main_v45_apply, val_main_v46_apply, val_main_v47_apply, val_main_v48_apply, val_main_v49_apply, val_main_cst_6_apply, val_main_v50_apply, val_main_v51_apply, val_main_v52_apply, val_main_cst_7_apply, val_main_v53_apply, val_main_v54_apply, val_main_v55_apply, val_main_cst_8_apply, val_main_v56_apply, val_main_v57_apply, val_main_cst_9_apply, val_main_v58_apply, val_main_v59_apply, val_main_cst_10_apply, val_main_v60_apply, val_main_v61_apply, val_main_cst_11_apply, val_main_v62_apply, val_main_v63_apply, val_main_v64_apply, val_main_v65_apply, val_main_cst_12_apply, val_main_v66_apply, val_main_v67_apply, val_main_v68_apply, val_main_v69_apply, val_main_cst_13_apply, val_main_call1_v0_apply, val_main_call1_v1_apply, val_main_v70_apply, val_main_v71_apply, val_main_cst_14_apply, val_main_v72_apply, val_main_v73_apply, val_main_v74_apply, val_main_cst_15_apply, val_main_v75_apply, val_main_v76_apply, val_main_cst_16_apply, val_main_v77_apply, val_main_v78_apply, val_main_cst_17_apply, val_main_v79_apply, val_main_v80_apply, val_main_cst_18_apply, val_main_v81_apply, val_main_v82_apply, val_main_v83_apply, val_main_v84_apply, val_main_cst_19_apply, val_main_v85_apply, val_main_v86_apply, val_main_v87_apply, val_main_v88_apply, val_main_cst_20_apply, val_main_call3_v0_apply, val_main_call3_v1_apply, val_main_v89_apply, val_main_v91_apply, val_main_v92_apply, val_main_v93_apply, val_main_v94_apply, val_main_v95_apply, val_main_v96_apply, val_main_v97_apply, val_main_call4_v0_apply, val_main_call4_c_apply, val_main_call4_v1_apply, val_main_call4_v2_apply, val_main_call4_v3_apply, val_main_call4_v4_apply, val_main_call4_cst_apply, val_main_call4_v5_apply]
  simp only [e1, e2, e3, e4, e5, e6, e7, e8, e9, e10]
  have hp : p.val < 4252 := p.isLt
  have hq : q.val < 4252 := q.isLt
  have hw : IntOp.cmpi .sge (IntOp.addi (BitVec.ofNat 32 p.val) 0#32) (BitVec.ofNat 32 q.val) = 1#1 ↔ q.val ≤ p.val := by
    rw [show (0#32 : BitVec 32) = BitVec.ofNat 32 0 from rfl, WordRemainder.addi_ofNat, Nat.add_zero]
    exact sge_ofNat p.val q.val (by omega) (by omega)
  refine (select_iff _ _ hw _ _).trans ?_
  by_cases h : p.val < q.val
  · rw [if_neg (by omega), if_pos h]; rfl
  · rw [if_pos (by omega), if_neg h]; exact Ideal.ofBits_zero_f32

/-- The sum of the whole triangular matrix, from zero. -/
theorem total_apply (i : S_.Idx) :
    val_main_v100 (F := Ideal) x0 x1 x2 x3 x4 x5 i
      = 0 + ∑ p : Fin 4252, ∑ q : Fin 4252, (if p.val < q.val then (cell (val_main_v24 (F := Ideal) x0 x1 x3 x5 (ix1 p)) (val_main_v24 (F := Ideal) x0 x1 x3 x5 (ix1 q))
          (val_main_v25 (F := Ideal) x0 x2 x4 x5 (ix1 p)) (val_main_v25 (F := Ideal) x0 x2 x4 x5 (ix1 q))
          (x1 (ix1 p)) (x1 (ix1 q)) (x2 (ix1 p)) (x2 (ix1 q))
          (val_main_v90 (F := Ideal) x1 x2 (ix1 p)) (val_main_v90 (F := Ideal) x1 x2 (ix1 q))) else 0) := by
  rw [val_main_v100_apply, sum_idx2]
  refine congrArg₂ (· + ·) Ideal.ofBits_zero_f32 (Finset.sum_congr rfl fun p _ => Finset.sum_congr rfl fun q _ => ?_)
  exact tri_apply x0 x1 x2 x3 x4 x5 p q

end Cert.ReferenceIdeal.RefValue

end
-- ==== Proof.LibBlockSum.lean ====
/-
  Regrouping a finite sum into consecutive blocks, in any commutative additive monoid (no cancellation and no
  finiteness is used, so it holds on the extended reals): a sum over `n * k` consecutive indices is the sum over the
  `n` blocks of the sums over the `k` places inside a block, place `e` of block `s` being index `e + k * s`.
-/
import Mathlib

namespace Cert.Lib.BlockSum

/-- Place `e` of block `s`, as an index below `n * k`: the natural `e + k * s`. -/
theorem place_val (n k : ℕ) (s : Fin n) (e : Fin k) : (finProdFinEquiv (s, e) : Fin (n * k)).val = e.val + k * s.val := rfl

/-- A sum over `Fin (n * k)` read block by block. -/
theorem sum_fin_mul_fin {M : Type*} [AddCommMonoid M] (n k : ℕ) (f : Fin (n * k) → M) :
    ∑ i : Fin (n * k), f i = ∑ s : Fin n, ∑ e : Fin k, f (finProdFinEquiv (s, e)) := by
  rw [← Fintype.sum_prod_type']
  exact (Equiv.sum_comp finProdFinEquiv f).symm

/-- The same with the summand a function of the natural under the index. -/
theorem sum_fin_mul {M : Type*} [AddCommMonoid M] (n k : ℕ) (f : ℕ → M) :
    ∑ i : Fin (n * k), f i.val = ∑ s : Fin n, ∑ e : Fin k, f (e.val + k * s.val) :=
  sum_fin_mul_fin n k fun i => f i.val

end Cert.Lib.BlockSum
-- ==== Proof.Bridge.lean ====
/-
  The two programs compute one number.

  The kernel program's result is the tail — add from zero, divide by the total area, square — of the masked row sums
  of the 4608 × 4608 square of padded pairs; the reference's is the same tail of the sum of the strict upper triangle
  of the 4252 × 4252 square of pairs. The masked square summed row by row, each row lane block by lane block, is the
  masked square summed over all its entries (`row_total`: a sum over 9 · 512 consecutive lanes read block by block);
  that is the triangle sum (`Overlap.triangle_sum`), and below 4252 a padded vector is the vector itself
  (`pair_real`). Sums on the extended reals are sums in a commutative monoid, so none of this needs the inputs finite.
-/
import proofs.«151115_j71519795413200_1_alg».proof.Proof.Result
import proofs.«151115_j71519795413200_1_alg».proof.Proof.RefValue
import proofs.«151115_j71519795413200_1_alg».proof.Proof.LibBlockSum
import Idealize.ShloMosaic.PureOps.Ideal.Laws

set_option maxRecDepth 16384

noncomputable section

open Idealize.ShloMosaic Idealize.ShloMosaic.TcCoe Idealize.SL.Sem Idealize.ShloMosaic.ValueIdx

namespace Cert.KernelIdeal.Bridge

open Cert.KernelIdeal Cert.KernelIdeal.Gen Cert.KernelIdeal.Accumulate Cert.KernelIdeal.Entry Cert.KernelIdeal.Result Cert.Overlap

variable (m : (ℓ : Loc nD τ sig) → Buf (Elt Ideal) ℓ) (c : Dev nD)

/-- A masked row, lane block by lane block, is the masked row over all 4608 lanes. -/
theorem row_total (a : ℕ) : rowSum m c a = ∑ b : Fin 4608, masked m c a b.val := by
  unfold rowSum
  rw [Finset.sum_range (fun J => ∑ l : Fin 512, masked m c a (J * 512 + l.val))]
  rw [show (∑ b : Fin 4608, masked m c a b.val) = ∑ b : Fin (9 * 512), masked m c a b.val from rfl,
    Cert.Lib.BlockSum.sum_fin_mul 9 512 (masked m c a)]
  exact Finset.sum_congr rfl fun J _ => Finset.sum_congr rfl fun l _ => congrArg (masked m c a) (by omega)

/-- Below 4252 a padded vector is the vector. -/
theorem ext_real (x : S4252.Idx → EReal) (w : BitVec 32) (p : Fin 4252) : ext x w p.val = x (ix1 p) := by
  unfold ext
  rw [dif_pos p.isLt]

/-- Below 4252 the padded pair is the pair of the vectors' own entries. -/
theorem pair_real (p q : Fin 4252) : pairOverlap m c p.val q.val = (cell (xs m c (ix1 p)) (xs m c (ix1 q)) (ys m c (ix1 p)) (ys m c (ix1 q)) (sxs m c (ix1 p)) (sxs m c (ix1 q))
          (sys m c (ix1 p)) (sys m c (ix1 q)) (areas m c (ix1 p)) (areas m c (ix1 q))) := by
  unfold pairOverlap
  simp only [ext_real]

/-- THE SUMS AGREE: the output array's total is the strict-upper-triangle total of the pairs' overlaps. -/
theorem sums_agree : (∑ k : S4608x1.Idx, rowSums m c k)
    = ∑ p : Fin 4252, ∑ q : Fin 4252, (if p.val < q.val then (cell (xs m c (ix1 p)) (xs m c (ix1 q)) (ys m c (ix1 p)) (ys m c (ix1 q)) (sxs m c (ix1 p)) (sxs m c (ix1 q))
          (sys m c (ix1 p)) (sys m c (ix1 q)) (areas m c (ix1 p)) (areas m c (ix1 q))) else 0) := by
  rw [sum_idx2]
  have h1 : ∀ a : Fin 4608, (∑ u : Fin 1, rowSums m c (ix2 a u)) = ∑ b : Fin 4608, masked m c a.val b.val := fun a => by
    rw [Fin.sum_univ_one]
    exact row_total m c a.val
  rw [Finset.sum_congr rfl fun a _ => h1 a]
  have h2 := triangle_sum 4252 4608 (by norm_num) (pairOverlap m c)
  refine (Eq.trans ?_ h2).trans ?_
  · rfl
  · exact Finset.sum_congr rfl fun p _ => Finset.sum_congr rfl fun q _ => by rw [pair_real]

/-- The kernel program's result is the reference's stage for its result, at the same arguments. -/
theorem result_eq : result m c = Cert.ReferenceIdeal.Read.val_main_v102 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  funext i
  have hK : Host.reduceAdd (F := Ideal) (rowSums m c) (constant (F := Ideal) S_ .f32 0x00000000#32) reducesTo_S4608x1_S_d0_1 h_S_ i
      = Cert.ReferenceIdeal.Read.val_main_v100 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) i := by
    rw [Cert.ReferenceIdeal.RefValue.total_apply]
    have hT : Host.reduceAdd (F := Ideal) (rowSums m c) (constant (F := Ideal) S_ .f32 0x00000000#32) reducesTo_S4608x1_S_d0_1 h_S_ i
        = (constant (F := Ideal) S_ .f32 0x00000000#32) (Shape.Idx.first h_S_) + ∑ k : S4608x1.Idx, rowSums m c k := by
      simp only [Host.reduceAdd, Ideal.hostReduceAdd_def]
      exact Ideal.hostReduceAdd_total reducesTo_S4608x1_S_d0_1 (fun b => b.elim0) (rowSums m c) _ i
    rw [hT, sums_agree]
    exact congrArg (· + _) Ideal.ofBits_zero_f32
  show FloatOps.mulf (FloatOps.hostDivf (Host.reduceAdd (F := Ideal) (rowSums m c) (constant (F := Ideal) S_ .f32 0x00000000#32) reducesTo_S4608x1_S_d0_1 h_S_ i) _)
    (FloatOps.hostDivf (Host.reduceAdd (F := Ideal) (rowSums m c) (constant (F := Ideal) S_ .f32 0x00000000#32) reducesTo_S4608x1_S_d0_1 h_S_ i) _) = _
  rw [hK]
  rfl

end Cert.KernelIdeal.Bridge

end
-- ==== Proof.lean ====
/-
  The pairwise macro-overlap loss: a tiled kernel against the plain formula, on the extended reals.

  Both programs compute, from a placement vector, macro indices, extents and boundary points, the centres (x, y) and
  areas a of 4252 points, and then ((Σ_{i<j} overlap(i, j)) / Σ a)², where overlap(i, j) is the area sum times a
  piecewise-quadratic bell of |xᵢ − xⱼ| and of |yᵢ − yⱼ| against the mean extents. The reference forms the whole
  4252 × 4252 matrix, zeroes it on and below the diagonal, and adds it up. The kernel pads the vectors to 4608, walks a
  9 × 9 grid of 512 × 512 tiles, masks each tile by "row < 4252, column < 4252, row < column", adds each tile's lane
  sums into a column carried along a row of the grid, writes the column out at the row's end, and the host adds the 4608
  row sums.

  The frames of the two kernel programs are the generated ones; the reference's frame is its generated run. At the ideal
  instance the kernel program's result is read off the generated frame run (Pieces, BlockValue, Accumulate, Result), the
  reference's off its generated run (RefValue), and the two are one number (Bridge): the centres and areas are the same
  stages of the same arguments, every pair's overlap is the same term, and the two summation orders agree in any
  commutative monoid. The ideal pass rewrote nothing, so the kernel's idealization is its own text.
-/
import proofs.«151115_j71519795413200_1_alg».proof.Defs
import proofs.«151115_j71519795413200_1_alg».proof.Proof.Gen.Kernel
import proofs.«151115_j71519795413200_1_alg».proof.Proof.Gen.Kernel.Skeleton
import proofs.«151115_j71519795413200_1_alg».proof.Proof.Gen.Kernel.Launch
import proofs.«151115_j71519795413200_1_alg».proof.Proof.Gen.Kernel.Points
import proofs.«151115_j71519795413200_1_alg».proof.Proof.Gen.Kernel.Frame
import proofs.«151115_j71519795413200_1_alg».proof.Proof.Gen.KernelIdeal
import proofs.«151115_j71519795413200_1_alg».proof.Proof.Gen.KernelIdeal.Skeleton
import proofs.«151115_j71519795413200_1_alg».proof.Proof.Gen.KernelIdeal.Launch
import proofs.«151115_j71519795413200_1_alg».proof.Proof.Gen.KernelIdeal.Points
import proofs.«151115_j71519795413200_1_alg».proof.Proof.Gen.KernelIdeal.Frame
import proofs.«151115_j71519795413200_1_alg».proof.Proof.Gen.ReferenceIdeal
import proofs.«151115_j71519795413200_1_alg».proof.Proof.Gen.Pre_finite_inputs
import proofs.«151115_j71519795413200_1_alg».proof.Proof.Gen.ReferenceIdeal.Run
import proofs.«151115_j71519795413200_1_alg».proof.Proof.Gen.ReferenceIdeal.Read
import proofs.«151115_j71519795413200_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments the two idealized programs end with the same extended real: the kernel
    program's result is the reference's result stage at its own arguments (`Bridge.result_eq`), and the arguments agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq, (hagree c).1, (hagree c).2.1, (hagree c).2.2.1, (hagree c).2.2.2.1,
    (hagree c).2.2.2.2.1, (hagree c).2.2.2.2.2]
  exact (Cert.KernelIdeal.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
